-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x2 : Shape := ⟨2, ![16384, 2]⟩
abbrev S22801x51 : Shape := ⟨2, ![22801, 51]⟩
abbrev S_ : Shape := ⟨0, ![]⟩

class Facts : Prop where
  bcast_S_S22801x51 : S_.BroadcastsInDim S22801x51 (![] : Fin 0 → Fin S22801x51.rank)
  reducesTo_S22801x51_S_d0_1 : S22801x51.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_

variable [Facts]

def fn {F : FTy → Type} [FloatOps F] (main_arg0 : IVec S16384x2 32) (main_arg1 : FVec F S22801x51 .f32) : IVec S_ 1 :=
  let main_v0 : FVec F S22801x51 .f32 := Host.absf main_arg1
  let main_cst : FVec F S_ .f32 := constant S_ .f32 0x7F800000#32
  let main_v1 : FVec F S22801x51 .f32 := broadcastInDim S22801x51 ![] bcast_S_S22801x51 main_cst
  let main_v2 : IVec S22801x51 1 := cmpf .olt main_v0 main_v1
  let main_c : IVec S_ 1 := constantI S_ 1 1#1
  let main_v3 : IVec S_ 1 := (fun x v => Host.reduce IntOp.andi x v reducesTo_S22801x51_S_d0_1 h_S_) main_v2 main_c
  let main_c_0 : IVec S_ 32 := constantI S_ 32 0#32
  let main_v4 : IVec S16384x2 32 := broadcastInDim S16384x2 ![] bcast_S_S16384x2 main_c_0
  let main_v5 : IVec S16384x2 1 := cmpi .sge main_arg0 main_v4
  let main_c_1 : IVec S_ 32 := constantI S_ 32 150#32
  let main_v6 : IVec S16384x2 32 := broadcastInDim S16384x2 ![] bcast_S_S16384x2 main_c_1
  let main_v7 : IVec S16384x2 1 := cmpi .sle main_arg0 main_v6
  let main_v8 : IVec S16384x2 1 := andi main_v5 main_v7
  let main_c_2 : IVec S_ 1 := constantI S_ 1 1#1
  let main_v9 : IVec S_ 1 := (fun x v => Host.reduce IntOp.andi x v reducesTo_S16384x2_S_d0_1 h_S_) main_v8 main_c_2
  let main_v10 : IVec S_ 1 := andi main_v3 main_v9
  main_v10
-- ==== Kernel.lean ====
abbrev S16384x2 : Shape := ⟨2, ![16384, 2]⟩
abbrev S22801x51 : Shape := ⟨2, ![22801, 51]⟩
abbrev S16384x1 : Shape := ⟨2, ![16384, 1]⟩
abbrev S16384 : Shape := ⟨1, ![16384]⟩
abbrev S_ : Shape := ⟨0, ![]⟩
abbrev S22801x128 : Shape := ⟨2, ![22801, 128]⟩
abbrev S16384x128 : Shape := ⟨2, ![16384, 128]⟩
abbrev S512 : Shape := ⟨1, ![512]⟩
abbrev S512x128 : Shape := ⟨2, ![512, 128]⟩
abbrev S16384x51 : Shape := ⟨2, ![16384, 51]⟩

abbrev nBuf : Table → Nat
  | .hbm => 15
  | .local .scVector .vmem => 2
  | _ => 0

abbrev bufTy : (tb : Table) → Fin (nBuf tb) → BufTy
  | .hbm, ⟨0, _⟩ => ⟨S16384x2, .i32⟩
  | .hbm, ⟨1, _⟩ => ⟨S22801x51, .f32⟩
  | .hbm, ⟨2, _⟩ => ⟨S16384x1, .i32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S16384x1, .i32⟩
  | .hbm, ⟨8, _⟩ => ⟨S16384, .i32⟩
  | .hbm, ⟨9, _⟩ => ⟨S16384, .i32⟩
  | .hbm, ⟨10, _⟩ => ⟨S_, .i32⟩
  | .hbm, ⟨11, _⟩ => ⟨S_, .f32⟩
  | .hbm, ⟨12, _⟩ => ⟨S22801x128, .f32⟩
  | .hbm, ⟨13, _⟩ => ⟨S16384x128, .f32⟩
  | .hbm, ⟨14, _⟩ => ⟨S16384x51, .f32⟩
  | .local .scVector .vmem, ⟨0, _⟩ => ⟨S512, .i32⟩
  | .local .scVector .vmem, ⟨1, _⟩ => ⟨S512x128, .f32⟩
  | _, _ => ⟨S16384x2, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v6_scv : Ref sig .scVector := ⟨.hbm, 9, rfl⟩
abbrev main_v7_scv : Ref sig .scVector := ⟨.hbm, 12, rfl⟩
abbrev main_v8_scv : Ref sig .scVector := ⟨.hbm, 13, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  slices_S16384x2_S16384x1_0_1 : S16384x2.Slices ![0, 1] S16384x1
  pads_S22801x51_S22801x128_000_0770 : S22801x51.Pads (![0, 0] : Fin 2 → Nat) ![0, 77] ![0, 0] S22801x128
  h_S_ : 0 < S_.numel
  inb_S22801x128_S22801x128_0_0 : ∀ a, (![0, 0] : Fin 2 → Nat) a + S22801x128.size a ≤ S22801x128.size a
  gathers_S22801x128_S512x128 : S22801x128.Gathers 0 S512x128
  slices_S16384x128_S16384x51_0_0 : S16384x128.Slices ![0, 0] S16384x51
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384x2 : Shape := ⟨2, ![16384, 2]⟩
abbrev S22801x51 : Shape := ⟨2, ![22801, 51]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x51 : Shape := ⟨2, ![16384, 51]⟩

abbrev nBuf : Space → Nat
  | .hbm => 33
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S22801x51, .f32⟩
  | .hbm, ⟨2, _⟩ => ⟨S16384x1, .i32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S16384x1, .i32⟩
  | .hbm, ⟨8, _⟩ => ⟨S16384, .i32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x51, .f32⟩
  | .hbm, ⟨29, _⟩ => ⟨S16384x51, .i1⟩
  | .hbm, ⟨30, _⟩ => ⟨S_, .f32⟩
  | .hbm, ⟨31, _⟩ => ⟨S16384x51, .f32⟩
  | .hbm, ⟨32, _⟩ => ⟨S16384x51, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v7 : Ref sig .tc := ⟨.hbm, 32, rfl⟩

abbrev nD : Nat := 1
abbrev τ : Topo := Topo.v7x

variable {F : FTy → Type} [FloatOps F]

class Facts₀ : Prop where
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  slices_S16384x2_S16384x1_0_1 : S16384x2.Slices ![0, 1] S16384x1
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x51_0 : S16384.BroadcastsInDim S16384x51 (![0] : Fin 1 → Fin S16384x51.rank)
  bcast_S_S16384x51 : S_.BroadcastsInDim S16384x51 (![] : Fin 0 → Fin S16384x51.rank)
  gather_S22801x51_S16384x1_S16384x51_1_0_n_n_0_1_151_wf : GatherDims.WF S22801x51 S16384x1 S16384x51 [1] [0] [] [0] [] 1 ![1, 51]

variable [Facts₀]

def gather_S22801x51_S16384x1_S16384x51_1_0_n_n_0_1_151 : GatherDims S22801x51 S16384x1 S16384x51 where
  offsetDims := [1]
  collapsedSliceDims := [0]
  operandBatchingDims := []
  startIndicesBatchingDims := []
  startIndexMap := [0]
  indexVectorDim := 1
  sliceSizes := ![1, 51]
  wf := gather_S22801x51_S16384x1_S16384x51_1_0_n_n_0_1_151_wf

class Facts : Prop extends Facts₀ where

variable [Facts]
-- ==== Proof.LibDealShares.lean ====
/-
  Dealing one array to a grid of readers. A points-to at the full share is a remainder and one read share per reader
  of an a × b grid: the full share is halved `a` times (one token per row of the grid, `Transfers.pointsTo_toks`), and each
  row's token `b` times. The remainders stay with the dealer; joined with all the tokens they are the full share again
  — the statement is an equality, read in either direction. What the TensorCore does with a table that every tile of
  both SparseCores reads during one call (a = 2 SparseCores, b = 16 tiles).
-/
import Idealize.ShloMosaic.Lib.Transfers

noncomputable section

namespace Cert.LibDealShares

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- Reader `(c, i)`'s share: token `i` of token `c` of the full share. -/
def sh (c i : ℕ) : PosShare TreeShare := Transfers.shareTokN (Transfers.shareTokN fullShare c) i

/-- An entailment proved in the proof mode's syntax, as the library's relation. -/
theorem of_ent {P R : sProp 𝕄} (h : P ⊢ R) : Idealize.SL.BI.Entails P R := h

/-- What stays with the dealer: the remainder of the first dealing and of each row's. -/
def rem (a b : ℕ) (ℓ : Loc nD τ sig) (f : Buf Val ℓ) : sProp 𝕄 :=
  iprop((ℓ ↦{Transfers.shareDrop fullShare a} f) ∗ bigSep Finset.univ fun c : Fin a => ℓ ↦{Transfers.shareDrop (Transfers.shareTok fullShare a c) b} f)

/-- The full share is the remainders and one read share per reader of the a × b grid. -/
theorem deal (a b : ℕ) (ℓ : Loc nD τ sig) (f : Buf Val ℓ) :
    (ℓ ↦{fullShare} f : sProp 𝕄)
      = iprop(rem a b ℓ f ∗ bigSep Finset.univ fun c : Fin a => bigSep Finset.univ fun i : Fin b => ℓ ↦{sh c.val i.val} f) := by
  unfold rem
  have e2 : (ℓ ↦{fullShare} f : sProp 𝕄)
      = iprop((ℓ ↦{Transfers.shareDrop fullShare a} f) ∗ bigSep Finset.univ fun c : Fin a => ℓ ↦{Transfers.shareTok fullShare a c} f) :=
    BI.equiv_iff.mp ⟨(Transfers.pointsTo_toks fullShare a).1, (Transfers.pointsTo_toks fullShare a).2⟩
  have e16 : ∀ c : Fin a, (ℓ ↦{Transfers.shareTok fullShare a c} f : sProp 𝕄)
      = iprop((ℓ ↦{Transfers.shareDrop (Transfers.shareTok fullShare a c) b} f) ∗ bigSep Finset.univ fun i : Fin b => ℓ ↦{sh c.val i.val} f) := fun c =>
    BI.equiv_iff.mp ⟨(Transfers.pointsTo_toks (Transfers.shareTok fullShare a c) b).1, (Transfers.pointsTo_toks (Transfers.shareTok fullShare a c) b).2⟩
  rw [e2, bigSep_congr fun c _ => e16 c, bigSep_sep']
  refine BI.equiv_iff.mp ⟨of_ent ?_, of_ent ?_⟩
  · iintro ⟨Ha, Hb, Hc⟩
    isplitl [Ha Hb]; · isplitl [Ha] <;> iassumption
    iexact Hc
  · iintro ⟨⟨Ha, Hb⟩, Hc⟩
    isplitl [Ha]; · iexact Ha
    isplitl [Hb] <;> iassumption

end Cert.LibDealShares

end
-- ==== Proof.KI.Setup.lean ====
/-
  The kernel's program as the launch theorem of a SparseCore program sees it, and what its one call moves.

  The call reads the vector of pair numbers (16384 words) and the table padded to 128 columns (22801 rows), and writes
  a [16384, 128] array. The 2 x 16 tiles work side by side: tile (c, s) owns rows 1024 s + 512 c ... + 511 of the pair
  numbers and of the output — the 32 blocks are pairwise disjoint and cover both arrays — and every tile reads the whole
  table, so the table goes out as 32 read shares of the full share. Row r of the output ends as row `fI r` of the
  table (`gathered`), where `fI` is what the pair-number vector holds at the call.
-/
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«207668_g20005957664788_cont_8to1_364_6_alg».proof.Proof.Gen.KernelIdeal
import proofs.«207668_g20005957664788_cont_8to1_364_6_alg».proof.Proof.Gen.KernelIdeal.Skeleton
import proofs.«207668_g20005957664788_cont_8to1_364_6_alg».proof.Proof.LibDealShares

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three arrays of the call and the tiles' scratch -/

/-- The pair numbers, the padded table, the call's result, as locations of device `d`. -/
abbrev iLoc (d : Dev nD) : Loc nD τ sig := (SparseCore.T d).loc main_v6
abbrev wLoc (d : Dev nD) : Loc nD τ sig := (SparseCore.T d).loc main_v7
abbrev oLoc (d : Dev nD) : Loc nD τ sig := (SparseCore.T d).loc main_v8

/-- A tile's grid point from its SparseCore and its number among the SparseCore's tiles. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The block of 512 pair numbers, and the block of 512 output rows, that the tile at `L` owns. -/
abbrev iRect (L : grid0.Coords) : Rect S16384 := Rect.unit (s := S16384) (k0_off1 L) S512.size (k0_off1_inb L)
abbrev oRect (L : grid0.Coords) : Rect S16384x128 := Rect.unit (s := S16384x128) (k0_off2 L) S512x128.size (k0_off2_inb L)
abbrev iBlk (L : grid0.Coords) : Memref sig .scVector .hbm S512 .i32 :=
  (Memref.whole main_v6_scv : Memref sig .scVector .hbm S16384 .i32).slice (iRect L) (fun _ => rfl)
abbrev oBlk (L : grid0.Coords) : Memref sig .scVector .hbm S512x128 .f32 :=
  (Memref.whole main_v8_scv : Memref sig .scVector .hbm S16384x128 .f32).slice (oRect L) (fun _ => rfl)
abbrev iSet (L : grid0.Coords) : Finset S16384.Idx := (iBlk L).view.set
abbrev oSet (L : grid0.Coords) : Finset S16384x128.Idx := (oBlk L).view.set

theorem iSet_eq (L : grid0.Coords) : iSet L = (iRect L).set := View.set_slice_whole _ _
theorem oSet_eq (L : grid0.Coords) : oSet L = (oRect L).set := View.set_slice_whole _ _

/-- An index of the pair-number vector lies in the block of tile (c, s) iff it lies in 1024 s + 512 c ... + 511. -/
theorem mem_iSet (L : grid0.Coords) (j : S16384.Idx) :
    j ∈ iSet L ↔ 1024 * (L 1).val + 512 * (L 0).val ≤ (j 0).val ∧ (j 0).val < 1024 * (L 1).val + 512 * (L 0).val + 512 := by
  rw [iSet_eq, Rect.mem_set_unit, k0_off1_eq]
  constructor
  · intro h; exact h 0
  · intro h a; match a with | ⟨0, _⟩ => exact h

/-- A row of the output lies in the block of tile (c, s) iff its number lies in 1024 s + 512 c ... + 511. -/
theorem mem_oSet (L : grid0.Coords) (j : S16384x128.Idx) :
    j ∈ oSet L ↔ 1024 * (L 1).val + 512 * (L 0).val ≤ (j 0).val ∧ (j 0).val < 1024 * (L 1).val + 512 * (L 0).val + 512 := by
  rw [oSet_eq, Rect.mem_set_unit, k0_off2_eq]
  constructor
  · intro h; exact h 0
  · intro h a
    match a with
    | ⟨0, _⟩ => exact h
    | ⟨1, _⟩ =>
      refine ⟨Nat.zero_le _, ?_⟩
      have := idx2_lt1 j
      show (j 1).val < 0 + 128
      omega

/-- The tiles of the grid, as pairs. -/
abbrev Tile : Type := Fin (grid0.bound 0) × Fin (grid0.bound 1)
abbrev tileL (t : Tile) : grid0.Coords := coordsV t.1 t.2

theorem tile_bounds (t : Tile) : (tileL t 0).val < 2 ∧ (tileL t 1).val < 16 := ⟨t.1.isLt, t.2.isLt⟩

theorem tile_ne {t t' : Tile} (h : t ≠ t') : (tileL t 0).val ≠ (tileL t' 0).val ∨ (tileL t 1).val ≠ (tileL t' 1).val := by
  by_contra hc
  have h0 : (tileL t 0).val = (tileL t' 0).val := by_contra fun e => hc (Or.inl e)
  have h1 : (tileL t 1).val = (tileL t' 1).val := by_contra fun e => hc (Or.inr e)
  exact h (Prod.ext (Fin.ext h0) (Fin.ext h1))

theorem iSets_disjoint : ∀ t ∈ (Finset.univ : Finset Tile), ∀ t' ∈ (Finset.univ : Finset Tile), t ≠ t' → Disjoint (iSet (tileL t)) (iSet (tileL t')) := by
  intro t _ t' _ h
  rw [Finset.disjoint_left]
  intro j hj hj'
  rw [mem_iSet] at hj hj'
  have b := tile_bounds t; have b' := tile_bounds t'
  rcases tile_ne h with e | e <;> omega

theorem oSets_disjoint : ∀ t ∈ (Finset.univ : Finset Tile), ∀ t' ∈ (Finset.univ : Finset Tile), t ≠ t' → Disjoint (oSet (tileL t)) (oSet (tileL t')) := by
  intro t _ t' _ h
  rw [Finset.disjoint_left]
  intro j hj hj'
  rw [mem_oSet] at hj hj'
  have b := tile_bounds t; have b' := tile_bounds t'
  rcases tile_ne h with e | e <;> omega

/-- The tile that owns row `n` (n < 16384): SparseCore (n / 512) mod 2, tile n / 1024 of it. -/
def ownerOf (n : ℕ) (hn : n < 16384) : Tile := (⟨(n / 512) % 2, Nat.mod_lt _ (by decide)⟩, ⟨n / 1024, by show n / 1024 < 16; omega⟩)

theorem iSets_cover : (Finset.univ : Finset Tile).biUnion (fun t => iSet (tileL t)) = Finset.univ := by
  ext j
  simp only [Finset.mem_biUnion, Finset.mem_univ, true_and, iff_true]
  have hj : (j 0).val < 16384 := (j 0).isLt
  refine ⟨ownerOf (j 0).val hj, ?_⟩
  rw [mem_iSet]
  show 1024 * ((j 0).val / 1024) + 512 * (((j 0).val / 512) % 2) ≤ (j 0).val ∧ (j 0).val < 1024 * ((j 0).val / 1024) + 512 * (((j 0).val / 512) % 2) + 512
  omega

theorem oSets_cover : (Finset.univ : Finset Tile).biUnion (fun t => oSet (tileL t)) = Finset.univ := by
  ext j
  simp only [Finset.mem_biUnion, Finset.mem_univ, true_and, iff_true]
  have hj : (j 0).val < 16384 := (j 0).isLt
  refine ⟨ownerOf (j 0).val hj, ?_⟩
  rw [mem_oSet]
  show 1024 * ((j 0).val / 1024) + 512 * (((j 0).val / 512) % 2) ≤ (j 0).val ∧ (j 0).val < 1024 * ((j 0).val / 1024) + 512 * (((j 0).val / 512) % 2) + 512
  omega

/-! ## What the call computes -/

/-- The table row a pair number names, reduced modulo the table's height (no change for a number in range). -/
def gRow (fI : S16384.Idx → BitVec 32) (r : Fin 16384) : Fin 22801 :=
  ⟨(fI (ix1 r)).toNat % 22801, Nat.mod_lt _ (by decide)⟩

/-- The gathered array: row `r` is row `fI r` of the table. -/
def gathered (fI : S16384.Idx → BitVec 32) (fW : S22801x128.Idx → Elt F .f32) : S16384x128.Idx → Elt F .f32 :=
  fun y => fW (ix2 (gRow fI ⟨(y 0).val, idx2_lt0 y⟩) ⟨(y 1).val, idx2_lt1 y⟩)

/-! ## What the handshakes carry -/

variable (fI : (d : Dev nD) → Buf (Elt F) (iLoc d)) (fW : (d : Dev nD) → Buf (Elt F) (wLoc d)) (fO : (d : Dev nD) → Buf (Elt F) (oLoc d))

/-- Tile (c, i)'s read share of the table. -/
abbrev wq (c : Fin (grid0.bound 0)) (i : Fin (grid0.bound 1)) : PosShare TreeShare := Cert.LibDealShares.sh c.val i.val

/-- What tile `t` is handed: its block of pair numbers, its share of the table, its block of the output as it stands; -/
def goOf (d : Dev nD) (t : Tile) : sProp 𝕄 :=
  iprop((iLoc d ↦[iSet (tileL t)]{fullShare} fI d) ∗ (wLoc d ↦{wq t.1 t.2} fW d) ∗ oLoc d ↦[oSet (tileL t)]{fullShare} fO d)
/-- and what it hands back: the same, its output block holding the gathered rows. -/
def tdOf (d : Dev nD) (t : Tile) : sProp 𝕄 :=
  iprop((iLoc d ↦[iSet (tileL t)]{fullShare} fI d) ∗ (wLoc d ↦{wq t.1 t.2} fW d)
    ∗ oLoc d ↦[oSet (tileL t)]{fullShare} (gathered (F := F) (fI d) (fW d) : Buf (Elt F) (oLoc d)))

/-- The tile a SparseCore of the call's grid and a task number name. -/
def tl (c : Fin ((K (F := F)).nCore 0)) (i : Fin ((K (F := F)).nSub 0)) : Tile := (⟨c.val, c.isLt⟩, ⟨i.val, i.isLt⟩)

/-- The one call's payloads: a SparseCore takes and brings back what its sixteen tiles do. -/
def P : (K (F := F)).Pay (nD := nD) (Val := Elt F) (Name := ℕ) (U := UU) where
  st := fun q d c => match q with | 0 => bigSep Finset.univ fun i : Fin ((K (F := F)).nSub 0) => goOf fI fW fO d (tl c i)
  dn := fun q d c => match q with | 0 => bigSep Finset.univ fun i : Fin ((K (F := F)).nSub 0) => tdOf fI fW d (tl c i)
  go := fun q d c i => match q with | 0 => goOf fI fW fO d (tl c i)
  td := fun q d c i => match q with | 0 => tdOf fI fW d (tl c i)
  x := fun _ _ => iprop(emp)

instance goOf_storable (d : Dev nD) (t : Tile) : BI.Storable (upEmb : UEmb _ 𝕄) (goOf fI fW fO d t) := by
  unfold goOf; infer_instance
instance tdOf_storable (d : Dev nD) (t : Tile) : BI.Storable (upEmb : UEmb _ 𝕄) (tdOf fI fW d t) := by
  unfold tdOf; infer_instance

instance P_storable : (P (F := F) fI fW fO).IsStorable where
  st q d c := match q with
    | 0 => (inferInstance : BI.Storable (upEmb : UEmb _ 𝕄) (bigSep Finset.univ fun i : Fin ((K (F := F)).nSub 0) => goOf fI fW fO d (tl c i)))
  dn q d c := match q with
    | 0 => (inferInstance : BI.Storable (upEmb : UEmb _ 𝕄) (bigSep Finset.univ fun i : Fin ((K (F := F)).nSub 0) => tdOf fI fW d (tl c i)))
  go q d c i := match q with
    | 0 => (inferInstance : BI.Storable (upEmb : UEmb _ 𝕄) (goOf fI fW fO d (tl c i)))
  td q d c i := match q with
    | 0 => (inferInstance : BI.Storable (upEmb : UEmb _ 𝕄) (tdOf fI fW d (tl c i)))

/-- Handing a resource on whole, and taking another back whole. -/
theorem split_id (A B : sProp 𝕄) : A ⊢ |={Set.univ}=> iprop(A ∗ (B -∗ B)) := by
  iintro H; imodintro
  isplitl [H]; · iexact H
  iintro H; iexact H

/-- A SparseCore's operands are its tiles' and its results theirs: nothing to rearrange. -/
theorem vecSplit : (K (F := F)).VecSplit' (P fI fW fO) 0 := by
  intro d c
  exact split_id _ _

/-! ## The launch element of the ghost state: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fI fW fO).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) fI fW fO).x q thr) = bigSep Finset.univ fun _ => iprop(emp) from
    bigSep_congr fun _ _ => bigSep_univ_of_subsingleton (0 : Fin 1), bigSep_emp']
  iempintro

end Cert.Proof.KI

end
-- ==== Proof.LibGatherPayload.lean ====
/-
  The value an indirect row gather delivers, element by element.

  The stream's rule hands back the destination written with `gatherPayload hg g r`, where `g` reads the source array,
  `r k` is the row the `k`-th offset names (`rows`, read off a rank-one offset list in row-major order) and `hg` relates
  the two shapes. At rank two with the rows along axis 0 — a table `[z, c]` gathered into `[o, c]` — this says: element
  `(j, f)` of the destination is element `(r j, f)` of the table, and `r j` is the `j`-th word of the list, read unsigned.
-/
import Idealize.ShloMosaic.Lib.SparseCore.Stream
import Idealize.ShloMosaic.Lib.ValueIdx

noncomputable section

namespace Cert.LibGatherPayload

open Idealize.ShloMosaic

variable {F : FTy → Type}

/-- The row the `k`-th offset names is the `k`-th word of a rank-one offset list, read unsigned. -/
theorem rows_val {o z : ℕ} (idx : (⟨1, ![o]⟩ : Shape).Idx → Elt F .i32) (hn : (⟨1, ![o]⟩ : Shape).numel = o)
    (h : ∀ x, (idx x).toNat < z) (k : Fin o) :
    (SparseCore.rows (si := ⟨1, ![o]⟩) idx hn h k).val = (idx (ValueIdx.ix1 k)).toNat := by
  unfold SparseCore.rows
  show (idx ((⟨1, ![o]⟩ : Shape).rowMajor.symm (k.cast hn.symm))).toNat = _
  congr 2
  rw [ValueIdx.eq_ix1 ((⟨1, ![o]⟩ : Shape).rowMajor.symm (k.cast hn.symm))]
  congr 1
  apply Fin.ext
  have e := Shape.rowMajor_val_one (d := ![o]) ((⟨1, ![o]⟩ : Shape).rowMajor.symm (k.cast hn.symm))
  rw [Equiv.apply_symm_apply] at e
  exact e.symm

/-- Element `(j, f)` of the gathered block is element `(r j, f)` of the table. -/
theorem gatherPayload_apply {z o c : ℕ} {e : EltTy} (hg : (⟨2, ![z, c]⟩ : Shape).Gathers 0 ⟨2, ![o, c]⟩)
    (g : (⟨2, ![z, c]⟩ : Shape).Idx → Elt F e) (r : Fin o → Fin z) (y : (⟨2, ![o, c]⟩ : Shape).Idx) :
    SparseCore.gatherPayload (s₀ := ⟨2, ![z, c]⟩) (s := ⟨2, ![o, c]⟩) hg g r y = g (ValueIdx.ix2 (r (y 0)) (y 1)) := by
  unfold SparseCore.gatherPayload
  congr 1
  funext b
  match b with
  | ⟨0, _⟩ => exact Fin.ext (congrArg Fin.val (Shape.Gathers.idx_axis hg r y))
  | ⟨1, _⟩ => exact Fin.ext (Shape.Gathers.idx_of_ne hg r y ⟨1, Nat.one_lt_two⟩ Nat.one_ne_zero)

end Cert.LibGatherPayload

end
-- ==== Proof.KI.Value.lean ====
/-
  What a tile's three transfers leave in its block of the output, element by element.

  The fetch lands the tile's 512 pair numbers in the list buffer; the gather lands, in row k of the row buffer, the table
  row that the k-th of them names; the write-out lands row k of the row buffer in row (block start + k) of the output.
  So element (block start + k, f) of the output is element (fI (block start + k), f) of the table: the gathered array's.
-/
import proofs.«207668_g20005957664788_cont_8to1_364_6_alg».proof.Proof.KI.Setup
import proofs.«207668_g20005957664788_cont_8to1_364_6_alg».proof.Proof.LibGatherPayload

noncomputable section

namespace Cert.Proof.KI

open Cert.KernelIdeal Cert.KernelIdeal.Gen

open Idealize.ShloMosaic
open Idealize.ShloMosaic.SparseCore (S V T)
open Idealize.ShloMosaic.ValueIdx

variable {F : FTy → Type}

local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)
local notation "wV" => (Memref.whole Cert.KernelIdeal.main_v7_scv : Memref Cert.KernelIdeal.sig Kind.scVector Space.hbm Cert.KernelIdeal.S22801x128 EltTy.f32)

/-- The whole rectangle places an index at itself. -/
theorem whole_emb (s : Shape) (x : s.Idx) : (Rect.whole s).emb x = x := by
  funext a
  apply Fin.ext
  have h := Rect.emb_apply (r := Rect.whole s) x a
  simpa [Rect.whole] using h

/-- A buffer written once, through the whole of a view, reads through that view as what was written. -/
theorem read_whole_write {κ : Kind} {sp : Space} {s : Shape} {e : EltTy} (v : View sig κ sp s e) (f : v.ty.Contents (Elt F))
    (w : s.Idx → Elt F e) (y : s.Idx) :
    v.read (Elt F) (v.writes (Elt F) f [⟨Rect.whole s, w⟩]) y = w y := by
  have h := View.read_writes_cons_emb (Val := Elt F) v f (Rect.whole s) w [] y
  rwa [whole_emb] at h

/-- The block of pair numbers tile `L` fetches, entry `k`: pair number (block start + k). -/
theorem iBlk_read (L : grid0.Coords) (fI : S16384.Idx → BitVec 32) (k : Fin 512)
    (hk : 1024 * (L 1).val + 512 * (L 0).val + k.val < 16384) :
    (iBlk L).view.read (Elt F) (fI : (iBlk L).view.ty.Contents (Elt F)) (ix1 k)
      = fI (ix1 (⟨1024 * (L 1).val + 512 * (L 0).val + k.val, hk⟩ : Fin 16384)) := by
  refine (View.read_apply _ _).trans ((cast_eq _ _).trans ?_)
  refine congrArg fI (funext fun a => ?_)
  match a with
  | ⟨0, _⟩ =>
    apply Fin.ext
    show ((iRect L).emb (ix1 k) 0 : Nat) = _
    rw [Rect.emb_apply]
    show k0_off1 L 0 + 1 * k.val = _
    rw [k0_off1_eq]
    show 1024 * (L 1).val + 512 * (L 0).val + 1 * k.val = 1024 * (L 1).val + 512 * (L 0).val + k.val
    omega

/-- The table read through the whole-array slice the kernel takes of it is the table. -/
theorem wSlice_read (fW : S22801x128.Idx → Elt F .f32) (hs) (j : S22801x128.Idx) :
    ((wV).slice (Rect.unit (s := S22801x128) ![0, 0] S22801x128.size inb_S22801x128_S22801x128_0_0) hs).view.read (Elt F)
      (fW : ((wV).slice (Rect.unit (s := S22801x128) ![0, 0] S22801x128.size inb_S22801x128_S22801x128_0_0) hs).view.ty.Contents (Elt F)) j = fW j := by
  refine (View.read_apply _ _).trans ((cast_eq _ _).trans ?_)
  refine congrArg fW (funext fun a => ?_)
  apply Fin.ext
  show ((Rect.unit (s := S22801x128) ![0, 0] S22801x128.size inb_S22801x128_S22801x128_0_0).emb j a : Nat) = _
  rw [Rect.emb_apply]
  match a with
  | ⟨0, _⟩ => show 0 + 1 * (j 0).val = (j 0).val; omega
  | ⟨1, _⟩ => show 0 + 1 * (j 1).val = (j 1).val; omega

/-- An element of tile `L`'s output block is the placed image of its coordinates inside the block. -/
theorem oBlk_emb (L : grid0.Coords) (y : S512x128.Idx) (i : S16384x128.Idx)
    (h0 : (i 0).val = 1024 * (L 1).val + 512 * (L 0).val + (y 0).val) (h1 : (i 1).val = (y 1).val) :
    (oBlk L).view.emb y = i := by
  funext a
  match a with
  | ⟨0, _⟩ =>
    apply Fin.ext
    show ((oRect L).emb y 0 : Nat) = _
    rw [Rect.emb_apply]
    show k0_off2 L 0 + 1 * (y 0).val = _
    rw [k0_off2_eq]
    show 1024 * (L 1).val + 512 * (L 0).val + 1 * (y 0).val = (i 0).val
    omega
  | ⟨1, _⟩ =>
    apply Fin.ext
    show ((oRect L).emb y 1 : Nat) = _
    rw [Rect.emb_apply]
    show k0_off2 L 1 + 1 * (y 1).val = _
    rw [k0_off2_eq]
    show 0 + 1 * (y 1).val = (i 1).val
    omega

/-- The gathered rows are the specification's: entry (k, f) of a gather whose k-th row is the table row that pair number
    (block start + k) names is entry (block start + k, f) of the gathered array. -/
theorem gathered_at (fI : S16384.Idx → BitVec 32) (fW : S22801x128.Idx → Elt F .f32)
    (hI : ∀ j : S16384.Idx, (fI j).toNat < 22801) (off : ℕ)
    (r : Fin 512 → Fin 22801)
    (hr : ∀ (k : Fin 512) (hk : off + k.val < 16384), (r k).val = (fI (ix1 (⟨off + k.val, hk⟩ : Fin 16384))).toNat)
    (y : S512x128.Idx) (i : S16384x128.Idx) (h0 : (i 0).val = off + (y 0).val) (h1 : (i 1).val = (y 1).val) :
    SparseCore.gatherPayload (F := F) (s₀ := S22801x128) (s := S512x128) gathers_S22801x128_S512x128 fW r y = gathered fI fW i := by
  rw [Cert.LibGatherPayload.gatherPayload_apply]
  unfold gathered
  refine congrArg fW (funext fun a => ?_)
  have hi0 : (i 0).val < 16384 := idx2_lt0 i
  have hy0 : (y 0).val < 512 := idx2_lt0 y
  match a with
  | ⟨0, _⟩ =>
    apply Fin.ext
    show (r (⟨(y 0).val, hy0⟩ : Fin 512)).val = (fI (ix1 (⟨(i 0).val, idx2_lt0 i⟩ : Fin 16384))).toNat % 22801
    rw [Nat.mod_eq_of_lt (hI _), hr ⟨(y 0).val, hy0⟩ (by show off + (y 0).val < 16384; omega)]
    refine congrArg (fun n : Fin 16384 => (fI (ix1 n)).toNat) (Fin.ext ?_)
    show off + (y 0).val = (i 0).val
    omega
  | ⟨1, _⟩ => exact Fin.ext h1.symm

/-- The output block after its one whole write, at an element of the block: the written payload at the element's
    coordinates inside the block. -/
theorem out_block_value (L : grid0.Coords) (G : S16384x128.Idx → Elt F .f32) (fO : (oBlk L).view.ty.Contents (Elt F))
    (pay : S512x128.Idx → Elt F .f32)
    (hpay : ∀ (y : S512x128.Idx) (i : S16384x128.Idx), (i 0).val = 1024 * (L 1).val + 512 * (L 0).val + (y 0).val →
      (i 1).val = (y 1).val → pay y = G i)
    (i : S16384x128.Idx) (hi : i ∈ oSet L) :
    ((oBlk L).view.writes (Elt F) fO [⟨Rect.whole S512x128, pay⟩] : S16384x128.Idx → Elt F .f32) i = G i := by
  rw [mem_oSet] at hi
  have hi1 : (i 1).val < 128 := idx2_lt1 i
  let y : S512x128.Idx := ix2 (⟨(i 0).val - (1024 * (L 1).val + 512 * (L 0).val), by omega⟩ : Fin 512) (⟨(i 1).val, hi1⟩ : Fin 128)
  have h0 : (i 0).val = 1024 * (L 1).val + 512 * (L 0).val + (y 0).val := by
    show (i 0).val = 1024 * (L 1).val + 512 * (L 0).val + ((i 0).val - (1024 * (L 1).val + 512 * (L 0).val)); omega
  have h1 : (i 1).val = (y 1).val := rfl
  have he := oBlk_emb L y i h0 h1
  have hr := read_whole_write (F := F) (oBlk L).view fO pay y
  rw [View.read_apply, he] at hr
  exact ((cast_eq _ _).symm.trans hr).trans (hpay y i h0 h1)

/-- What the tile's write-out carries — the row buffer after the gather, read whole — is, at (k, f), the gathered
    array's entry (block start + k, f). -/
theorem tile_pay (L : grid0.Coords) (fI : S16384.Idx → BitVec 32) (fW : S22801x128.Idx → Elt F .f32)
    (hI : ∀ j : S16384.Idx, (fI j).toNat < 22801)
    (fs : (sV).view.ty.Contents (Elt F)) (fr : (rV).view.ty.Contents (Elt F)) (hs)
    (hn : S512.numel = S512x128.size gathers_S22801x128_S512x128.axis')
    (hin : ∀ x, ((sV).view.read (Elt F) (View.write (Elt F) (sV).view fs
        (ReadAs.same.apply ((iBlk L).view.read (Elt F) (fI : (iBlk L).view.ty.Contents (Elt F)))) Finset.univ) x).toNat
          < S22801x128.size gathers_S22801x128_S512x128.axis)
    (y : S512x128.Idx) (i : S16384x128.Idx) (h0 : (i 0).val = 1024 * (L 1).val + 512 * (L 0).val + (y 0).val)
    (h1 : (i 1).val = (y 1).val) :
    ReadAs.same.apply ((rV).view.read (Elt F) ((rV).view.writes (Elt F) fr [⟨Rect.whole S512x128,
        SparseCore.gatherPayload (F := F) gathers_S22801x128_S512x128
          (((wV).slice (Rect.unit (s := S22801x128) ![0, 0] S22801x128.size inb_S22801x128_S22801x128_0_0) hs).view.read (Elt F)
            (fW : ((wV).slice (Rect.unit (s := S22801x128) ![0, 0] S22801x128.size inb_S22801x128_S22801x128_0_0) hs).view.ty.Contents (Elt F)))
          (SparseCore.rows ((sV).view.read (Elt F) (View.write (Elt F) (sV).view fs
            (ReadAs.same.apply ((iBlk L).view.read (Elt F) (fI : (iBlk L).view.ty.Contents (Elt F)))) Finset.univ)) hn hin)⟩])) y
      = gathered fI fW i := by
  show (rV).view.read (Elt F) ((rV).view.writes (Elt F) fr [⟨Rect.whole S512x128, _⟩]) y = _
  refine (read_whole_write (F := F) (rV).view fr _ y).trans ?_
  have hsrc : ((wV).slice (Rect.unit (s := S22801x128) ![0, 0] S22801x128.size inb_S22801x128_S22801x128_0_0) hs).view.read (Elt F)
      (fW : ((wV).slice (Rect.unit (s := S22801x128) ![0, 0] S22801x128.size inb_S22801x128_S22801x128_0_0) hs).view.ty.Contents (Elt F)) = fW :=
    funext fun j => wSlice_read fW hs j
  rw [hsrc]
  refine gathered_at fI fW hI (1024 * (L 1).val + 512 * (L 0).val) _ (fun k hk => ?_) y i h0 h1
  refine (Cert.LibGatherPayload.rows_val (F := F) (o := 512) (z := 22801) _ hn hin k).trans ?_
  refine congrArg BitVec.toNat ?_
  rw [View.write_whole_univ]
  simp only [Memref.view_whole, View.read_whole]
  exact iBlk_read (F := F) L fI k hk

end Cert.Proof.KI

end
-- ==== Proof.KI.Tile.lean ====
/-
  One tile's task: fetch its 512 pair numbers, gather the table rows they name, write the 512 rows out.
-/
import proofs.«207668_g20005957664788_cont_8to1_364_6_alg».proof.Proof.KI.Setup
import proofs.«207668_g20005957664788_cont_8to1_364_6_alg».proof.Proof.KI.Value

set_option pp.maxSteps 20000
set_option pp.deepTerms false

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v6_scv : Memref Cert.KernelIdeal.sig Kind.scVector Space.hbm Cert.KernelIdeal.S16384 EltTy.i32)
local notation "wV" => (Memref.whole Cert.KernelIdeal.main_v7_scv : Memref Cert.KernelIdeal.sig Kind.scVector Space.hbm Cert.KernelIdeal.S22801x128 EltTy.f32)
local notation "oV" => (Memref.whole Cert.KernelIdeal.main_v8_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

section Tile

variable [FloatOps F] (d : Dev nD) (L : grid0.Coords)

omit [FloatOps F] in
theorem pts_iBlk (f : Buf (Elt F) (iLoc d)) :
    ((iBlk L).view.loc (V d (cV L) (jV L)) ↦[(iBlk L).view.set]{fullShare} f : sProp 𝕄) = iLoc d ↦[iSet L]{fullShare} f := rfl
omit [FloatOps F] in
theorem pts_oBlk (f : Buf (Elt F) (oLoc d)) :
    ((oBlk L).view.loc (V d (cV L) (jV L)) ↦[(oBlk L).view.set]{fullShare} f : sProp 𝕄) = oLoc d ↦[oSet L]{fullShare} f := rfl
omit [FloatOps F] in
theorem pts_wV (q : PosShare TreeShare) (f : Buf (Elt F) (wLoc d)) :
    ((wV).view.loc (V d (cV L) (jV L)) ↦{q} f : sProp 𝕄) = wLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's three DMA semaphores: the gather's, the fetch's, the write-out's. -/
abbrev cGcell (d : Dev nD) (c : Fin τ.nSC) (i : Fin τ.nSub) : GSem nD τ sig := (V d c i, .dma cc0_scratch2.sem)
abbrev cFcell (d : Dev nD) (c : Fin τ.nSC) (i : Fin τ.nSub) : GSem nD τ sig := (V d c i, .dma cc0_scoped0.sem)
abbrev cOcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cFcell d (cV L) (jV L)) 0 ∗ semVal (cOcell d (cV L) (jV L)) 0
          ∗ bigSep ((((ownCells (V d (cV L) (jV L))).erase (cGcell d (cV L) (jV L))).erase (cFcell d (cV L) (jV L))).erase (cOcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cFcell]; decide, (mem_ownCells (g := cFcell d (cV L) (jV L))).mpr ⟨rfl, by
      show (SemLoc.dma cc0_scoped0.sem : SemLoc sig).isScoped .scVector = true; decide⟩⟩),
    SparseCore.bigSep_erase' (Finset.mem_erase.mpr ⟨by simp [cFcell, cOcell]; decide, Finset.mem_erase.mpr ⟨by simp [cGcell, cOcell]; decide,
      (mem_ownCells (g := cOcell d (cV L) (jV L))).mpr ⟨rfl, by show (SemLoc.dma cc0_scoped1.sem : SemLoc sig).isScoped .scVector = true; decide⟩⟩⟩)]

omit [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- What the fetch leaves in the list buffer is the tile's block of pair numbers, each of which names a table row. -/
theorem list_inb (fI : Buf (Elt F) (iLoc d)) (hI : ∀ j : S16384.Idx, ((fI : S16384.Idx → BitVec 32) j).toNat < 22801)
    (fs : Buf (Elt F) ((V d (cV L) (jV L)).loc cc0_scratch0)) (pay : S512.Idx → Elt F .i32)
    (hpay : pay = (iBlk L).view.read (Elt F) fI) :
    ∀ x, ((sV).view.read (Elt F) (View.write (Elt F) (sV).view fs pay Finset.univ) x).toNat < S22801x128.size gathers_S22801x128_S512x128.axis := by
  subst hpay; intro x
  rw [View.write_whole_univ]
  simp only [Memref.view_whole, View.read_whole]
  rw [show (iBlk L).view.read (Elt F) fI x = fI ((iBlk L).view.emb x) from (View.read_apply _ _).trans (cast_eq _ _)]
  exact hI _

set_option maxHeartbeats 4000000 in
/-- The task of the tile at `L`. -/
theorem tile_body (hF : (K (F := F)).Facts)
    (fI : Buf (Elt F) (iLoc d)) (fW : Buf (Elt F) (wLoc d)) (fO : Buf (Elt F) (oLoc d)) (q : PosShare TreeShare)
    (hI : ∀ j : S16384.Idx, ((fI : S16384.Idx → BitVec 32) j).toNat < 22801)
    (O : CellTallies nD τ sig (HIx 1)) (W : Waits sig (HIx 1)) (hO : ∀ g, O g none = 0) :
    (iprop(levAts (K (F := F)).L (K (F := F)).lev ∗ emp
        ∗ ((iLoc d ↦[iSet L]{fullShare} fI) ∗ (wLoc d ↦{q} fW) ∗ oLoc d ↦[oSet L]{fullShare} fO)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_sc_gather L iV (Memref.isWhole_whole _) wV (Memref.isWhole_whole _) oV (Memref.isWhole_whole _)
            sV (Memref.isWhole_whole _) rV (Memref.isWhole_whole _) cc0_scratch2 cc0_scoped0 cc0_scoped1)
          fun _ => iprop(((iLoc d ↦[iSet L]{fullShare} fI) ∗ (wLoc d ↦{q} fW)
              ∗ oLoc d ↦[oSet L]{fullShare} (gathered (F := F) fI fW : Buf (Elt F) (oLoc d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  rw [(K (F := F)).scopedBufs_V hF d (cV L) (jV L), SparseCore.Cfg.scopedSems0_V (Val := Elt F) d (cV L) (jV L), ownSems0_V, ownBufs_V]
  iintro ⟨#Hlv, -, ⟨Hi, Hw, Ho⟩, ⟨⟨%fs, Hs⟩, ⟨%fr, Hr⟩, Hbufs⟩, ⟨HsemG, HsemF, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iBlk (F := F) d L _).symm) $$ Hi
  ihave Ho' := (Entails.of_eq (pts_oBlk (F := F) d L _).symm) $$ Ho
  ihave Hw' := (Entails.of_eq (pts_wV (F := F) d L _ _).symm) $$ Hw
  ihave Hs' := (Entails.of_eq (pts_sV (F := F) d L _).symm) $$ Hs
  ihave Hr' := (Entails.of_eq (pts_rV (F := F) d L _).symm) $$ Hr
  sl_exec
  have hin := list_inb (F := F) d L fI hI fs (tile_body.sl.dma0 d L fI) rfl
  sl_exec
  -- the output block, written once with what the row buffer held after the gather, holds the gathered rows
  have hOut : ((oBlk L).view.loc (V d (cV L) (jV L)) ↦[(oBlk L).view.set]{fullShare}
        ((oBlk L).view.writes (Elt F) fO [⟨Rect.whole S512x128, tile_body.sl.dma0_1 d L fI fW fs fr hin⟩]) : sProp 𝕄)
      = oLoc d ↦[oSet L]{fullShare} (gathered (F := F) fI fW : Buf (Elt F) (oLoc d)) :=
    pointsTo_congr fun i hi => out_block_value (F := F) L (gathered fI fW) fO _
      (fun y i h0 h1 => tile_pay (F := F) L fI fW hI fs fr _ _ hin y i h0 h1) i hi
  sl_step
  isplitl [Hi' Hw' Ho']
  · isplitl [Hi']; · iapply (Entails.of_eq (pts_iBlk (F := F) d L _)); iexact Hi'
    isplitl [Hw']; · iapply (Entails.of_eq (pts_wV (F := F) d L _ _)); iexact Hw'
    iapply (Entails.of_eq hOut); iexact Ho'
  isplitl [Hs' Hr' Hbufs]
  · isplitl [Hs']; · iexists _; iexact Hs'
    isplitl [Hr']; · iexists _; iexact Hr'
    iexact Hbufs
  isplitl [HsemG HsemF HsemO Hsems]
  · isplitl [HsemG]; · iexact HsemG
    isplitl [HsemF]; · iexact HsemF
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The launch theorem's obligation for the tiles -/

section Obl

variable [FloatOps F]
variable (fI : (d : Dev nD) → Buf (Elt F) (iLoc d)) (fW : (d : Dev nD) → Buf (Elt F) (wLoc d)) (fO : (d : Dev nD) → Buf (Elt F) (oLoc d))

theorem defs₀_vector (c : Fin τ.nSC) (s : Fin τ.nSub) :
    defs₀ (F := F) (.scVector c s) 0 ()
      = SparseCore.onTile hcore0 hsub0 (fun c s => cc0_sc_gather (coordsV c s)
          iV (Memref.isWhole_whole _) wV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : ∀ (d : Dev nD) (j : S16384.Idx), ((fI d : S16384.Idx → BitVec 32) j).toNat < 22801) :
    (K (F := F)).TileObl (D (F := F)) 𝒱 (P fI fW fO) v₀ 0 := by
  intro d c i O W hO _ _
  simp only [show (P fI fW fO).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (fI d) (fW d) (fO d) _ (hI d) O W hO).trans (wp_mono frame _ _ fun _ => obl_post)

end Obl

end Cert.Proof.KI

end
-- ==== Proof.Spec.lean ====
/-
  The function both programs compute, stated once and index by index.

  The input `labels` is a [16384, 2] array of 32-bit words, the table `W` a [22801, 51] array of floats. Row `r` of the
  result is row `labels[r, 0] * 151 + labels[r, 1]` of the table: the flat number of the ordered pair of object classes
  (151 classes, so 151 * 151 = 22801 pairs). The product and the sum are taken in 32-bit words, as both programs take
  them. For labels between 0 and 150 the word is at most 150 * 151 + 150 = 22800: it does not wrap and it names a row.
  The row is written modulo 22801 so that the function is total; inside the domain the reduction changes nothing.
-/
import Idealize.ShloMosaic.PureOps
import Idealize.ShloMosaic.Lib.ValueIdx

noncomputable section

namespace Cert.Spec

open Idealize.ShloMosaic Idealize.ShloMosaic.ValueIdx

abbrev SL : Shape := ⟨2, ![16384, 2]⟩
abbrev SI : Shape := ⟨1, ![16384]⟩
abbrev SW : Shape := ⟨2, ![22801, 51]⟩
abbrev SO : Shape := ⟨2, ![16384, 51]⟩

/-- The flat pair number of row `r`, as a 32-bit word. -/
def word (l : IVec SL 32) (r : Fin 16384) : BitVec 32 :=
  l (ix2 r (0 : Fin 2)) * 151#32 + l (ix2 r (1 : Fin 2))

/-- The pair numbers as one vector: what both programs hold after their first eight host operations. -/
def idxVec (l : IVec SL 32) : IVec SI 32 := fun j => word l ⟨(j 0).val, (j 0).isLt⟩

/-- The table row that row `r` of the result copies. -/
def rowOf (l : IVec SL 32) (r : Fin 16384) : Fin 22801 :=
  ⟨(word l r).toNat % 22801, Nat.mod_lt _ (by norm_num)⟩

/-- The result: row `r` is row `rowOf l r` of the table. -/
def G {F : FTy → Type} (l : IVec SL 32) (W : FVec F SW .f32) : FVec F SO .f32 :=
  fun y => W (ix2 (rowOf l ⟨(y 0).val, idx2_lt0 y⟩) ⟨(y 1).val, idx2_lt1 y⟩)

/-- The domain of the claim: every label, read unsigned, is at most 150. -/
def InDomain (l : IVec SL 32) : Prop := ∀ y, (l y).toNat ≤ 150

/-- Inside the domain the pair number does not wrap: it is the number itself, -/
theorem word_toNat {l : IVec SL 32} (h : InDomain l) (r : Fin 16384) :
    (word l r).toNat = (l (ix2 r (0 : Fin 2))).toNat * 151 + (l (ix2 r (1 : Fin 2))).toNat := by
  have h0 := h (ix2 r (0 : Fin 2))
  have h1 := h (ix2 r (1 : Fin 2))
  unfold word
  rw [BitVec.toNat_add, BitVec.toNat_mul]
  have e : (151#32 : BitVec 32).toNat = 151 := by decide
  rw [e]
  have hm : (l (ix2 r (0 : Fin 2))).toNat * 151 < 2 ^ 32 := by omega
  rw [Nat.mod_eq_of_lt hm, Nat.mod_eq_of_lt (by omega)]

/-- and it names a row of the table. -/
theorem word_lt {l : IVec SL 32} (h : InDomain l) (r : Fin 16384) : (word l r).toNat < 22801 := by
  rw [word_toNat h r]
  have h0 := h (ix2 r (0 : Fin 2))
  have h1 := h (ix2 r (1 : Fin 2))
  omega

theorem rowOf_val {l : IVec SL 32} (h : InDomain l) (r : Fin 16384) : (rowOf l r).val = (word l r).toNat :=
  Nat.mod_eq_of_lt (word_lt h r)

end Cert.Spec

end
-- ==== Proof.HostIdx.lean ====
/-
  The first eight host operations, read at an index. Both programs begin by forming the pair numbers: column 0 of
  the labels as a vector (a slice, then a reshape), times the constant 151, plus column 1 as a vector. At index `j`
  the slice-and-reshape of column `k` reads the label at `(j, k)`, the broadcast constant reads 151, and the product
  and the sum are taken word by word: the vector is `Cert.Spec.idxVec l`. The shape facts the operations take are
  hypotheses, so that either program's own proofs of them fit.
-/
import proofs.«207668_g20005957664788_cont_8to1_364_6_alg».proof.Proof.Spec
import Idealize.ShloMosaic.Lib.ValueLayout

noncomputable section

namespace Cert.Proof.HostIdx

open Idealize.ShloMosaic Idealize.ShloMosaic.ValueIdx

/-- Column `k` of the labels, sliced out as a [16384, 1] block and reshaped to a vector, reads the label at
    `(j, k)`. -/
theorem column_apply (o : Nat) (k : Fin 2) (hk : k.val = o)
    (h : Cert.Spec.SL.Slices ![0, o] (⟨2, ![16384, 1]⟩ : Shape))
    (hc : (⟨2, ![16384, 1]⟩ : Shape).ShapeCasts Cert.Spec.SI) (l : IVec Cert.Spec.SL 32) (j : Cert.Spec.SI.Idx) :
    shapeCast Cert.Spec.SI (extractStridedSlice (⟨2, ![16384, 1]⟩ : Shape) ![0, o] l h) hc j = l (ix2 (j 0) k) := by
  rw [shapeCast_apply _ hc j (ix2 (j 0) (0 : Fin 1))
    (by rw [Shape.rowMajor_val_two, Shape.rowMajor_val_one]; show (j 0).val * 1 + 0 = (j 0).val; omega)]
  exact slice2_axis1_apply o l h (j 0) (0 : Fin 1) k (by rw [hk]; rfl)

/-- The pair numbers as the first eight operations compute them are `Cert.Spec.idxVec l`. -/
theorem pairNumbers_eq (h00 : Cert.Spec.SL.Slices ![0, 0] (⟨2, ![16384, 1]⟩ : Shape))
    (h01 : Cert.Spec.SL.Slices ![0, 1] (⟨2, ![16384, 1]⟩ : Shape))
    (hc : (⟨2, ![16384, 1]⟩ : Shape).ShapeCasts Cert.Spec.SI)
    (hb : (⟨0, ![]⟩ : Shape).BroadcastsInDim Cert.Spec.SI (![] : Fin 0 → Fin Cert.Spec.SI.rank))
    (l : IVec Cert.Spec.SL 32) :
    addi (muli (shapeCast Cert.Spec.SI (extractStridedSlice (⟨2, ![16384, 1]⟩ : Shape) ![0, 0] l h00) hc)
          (broadcastInDim Cert.Spec.SI ![] hb (constantI (⟨0, ![]⟩ : Shape) 32 151#32)))
        (shapeCast Cert.Spec.SI (extractStridedSlice (⟨2, ![16384, 1]⟩ : Shape) ![0, 1] l h01) hc)
      = Cert.Spec.idxVec l := by
  funext j
  show IntOp.addi (IntOp.muli (shapeCast Cert.Spec.SI (extractStridedSlice (⟨2, ![16384, 1]⟩ : Shape) ![0, 0] l h00) hc j) 151#32)
      (shapeCast Cert.Spec.SI (extractStridedSlice (⟨2, ![16384, 1]⟩ : Shape) ![0, 1] l h01) hc j) = _
  rw [column_apply 0 (0 : Fin 2) rfl h00 hc l j, column_apply 1 (1 : Fin 2) rfl h01 hc l j]
  rfl

end Cert.Proof.HostIdx

end
-- ==== Proof.KI.Main.lean ====
/-
  @main on the TensorCore around the one SparseCore call, and the program's run.

  Eleven host operations come before the call: eight make the vector of pair numbers from the labels, three pad the
  table with 77 zero columns. One comes after: the first 51 columns of the call's result. Between them the call takes
  the pair numbers, the padded table and the result array, deals them to the 32 tiles, and brings them back with the
  result holding the gathered rows. Read at (r, j), j < 51, the final array is the padded table at (pair number r, j),
  which is the table itself there: the specified function.
-/
import proofs.«207668_g20005957664788_cont_8to1_364_6_alg».proof.Proof.KI.Tile
import proofs.«207668_g20005957664788_cont_8to1_364_6_alg».proof.Proof.HostIdx
import Idealize.ShloMosaic.Lib.KernelVsHost
import Idealize.ShloMosaic.Lib.Pipeline.Frame
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq)
open Idealize.ShloMosaic.Tactic
open Idealize.ShloMosaic.ValueIdx
open Idealize.ShloMosaic.TcCoe

variable {F : FTy → Type}

local notation "𝕄" => MT nD τ sig (HIx 1) (Elt F) ℕ UU ℕ

/-! ## The host operations, as two lines -/

section Ops
variable [FloatOps F]

/-- The eleven operations before the call, -/
abbrev opsPre : List (HloOp τ sig (Elt F)) :=
  [ StableHlo.unary main_arg0 main_v0 ((extractStridedSlice S16384x1 ![0, 0] · Facts₀.slices_S16384x2_S16384x1_0_0) : (⟨S16384x2, .i32⟩ : BufTy).Contents (Elt F) → (⟨S16384x1, .i32⟩ : BufTy).Contents (Elt F)),
    StableHlo.reshape main_v0 main_v1 rfl Facts₀.shapeCasts_S16384x1_S16384,
    StableHlo.nullary main_c (constantI S_ 32 151#32),
    StableHlo.unary main_c main_v2 (broadcastInDim S16384 ![] Facts₀.bcast_S_S16384 : (⟨S_, .i32⟩ : BufTy).Contents (Elt F) → (⟨S16384, .i32⟩ : BufTy).Contents (Elt F)),
    StableHlo.binary main_v1 main_v2 main_v3 (muli : (⟨S16384, .i32⟩ : BufTy).Contents (Elt F) → (⟨S16384, .i32⟩ : BufTy).Contents (Elt F) → (⟨S16384, .i32⟩ : BufTy).Contents (Elt F)),
    StableHlo.unary main_arg0 main_v4 ((extractStridedSlice S16384x1 ![0, 1] · Facts₀.slices_S16384x2_S16384x1_0_1) : (⟨S16384x2, .i32⟩ : BufTy).Contents (Elt F) → (⟨S16384x1, .i32⟩ : BufTy).Contents (Elt F)),
    StableHlo.reshape main_v4 main_v5 rfl Facts₀.shapeCasts_S16384x1_S16384,
    StableHlo.binary main_v3 main_v5 main_v6 (addi : (⟨S16384, .i32⟩ : BufTy).Contents (Elt F) → (⟨S16384, .i32⟩ : BufTy).Contents (Elt F) → (⟨S16384, .i32⟩ : BufTy).Contents (Elt F)),
    StableHlo.nullary main_c_0 (constantI S_ 32 0#32),
    StableHlo.TRef.unary (.of main_c_0 : StableHlo.TRef sig ⟨S_, .i32⟩) main_call0.v0 (sitofp .f32),
    StableHlo.TRef.binary (.of main_arg1 : StableHlo.TRef sig ⟨S22801x51, .f32⟩) main_call0.v0 main_call0.v1 (fun x v => pad S22801x128 ![0, 0] ![0, 77] ![0, 0] x v Facts₀.pads_S22801x51_S22801x128_000_0770 Facts₀.h_S_) ]

/-- and the one after it. -/
abbrev opsPost : List (HloOp τ sig (Elt F)) :=
  [ StableHlo.unary main_v8 main_v9 ((extractStridedSlice S16384x51 ![0, 0] · Facts₀.slices_S16384x128_S16384x51_0_0) : (⟨S16384x128, .f32⟩ : BufTy).Contents (Elt F) → (⟨S16384x51, .f32⟩ : BufTy).Contents (Elt F)) ]

set_option maxRecDepth 4096 in
/-- @main is the first line, the call, the second line. -/
theorem main_eq (d : Dev nD) :
    main (F := F) d = (StableHlo.seq opsPre >>= fun _ => ((sc (F := F)).run d 0 >>= fun _ => (StableHlo.seq opsPost >>= fun _ => pure ⟨⟩))) := by
  simp only [main, fn_pad.body, StableHlo.seq, bind_assoc, pure_bind]

theorem opsPre_tc : (opsPre : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub ..,
    StableHlo.binary_bufs_sub .., StableHlo.unary_bufs_sub .., StableHlo.reshape_bufs_sub .., StableHlo.binary_bufs_sub ..,
    StableHlo.nullary_bufs_sub .., StableHlo.unary_bufs_sub .., StableHlo.binary_bufs_sub ..⟩

theorem opsPre_sub : ∀ op ∈ (opsPre : List (HloOp τ sig (Elt F))), op.bufs ⊆ Pipeline.ucRefs τ sig :=
  fun op h => Pipeline.sub_ucRefs op (List.forall_iff_forall_mem.mp opsPre_tc op h)

theorem opsPre_fresh : ∀ op ∈ (opsPre : List (HloOp τ sig (Elt F))), op.fresh = ∅ := by
  intro _ h; (repeat (cases h with | head => rfl | tail _ h => ?_)); exact nomatch h

theorem opsPost_tc : (opsPost : List (HloOp τ sig (Elt F))).Forall fun op => op.bufs ⊆ StableHlo.tcRefs τ sig :=
  StableHlo.unary_bufs_sub ..

theorem opsPost_sub : ∀ op ∈ (opsPost : List (HloOp τ sig (Elt F))), op.bufs ⊆ Pipeline.ucRefs τ sig :=
  fun op h => Pipeline.sub_ucRefs op (List.forall_iff_forall_mem.mp opsPost_tc op h)

theorem opsPost_fresh : ∀ op ∈ (opsPost : List (HloOp τ sig (Elt F))), op.fresh = ∅ := by
  intro _ h; (repeat (cases h with | head => rfl | tail _ h => ?_)); exact nomatch h

end Ops

/-! ## What the arrays hold along @main -/

section Run

variable [FloatOps F]
variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev i' : DevRef τ sig := Proc.devRef .tc (main_v6 : Ref sig .tc)
abbrev w' : DevRef τ sig := Proc.devRef .tc (main_v7 : Ref sig .tc)
abbrev o' : DevRef τ sig := Proc.devRef .tc (main_v8 : Ref sig .tc)
abbrev r' : DevRef τ sig := Proc.devRef .tc (main_v9 : Ref sig .tc)

/-- The launch contents; after the first line; after the call; after the second line. -/
def V0 (d : Dev nD) : Valuation τ sig (Elt F) := fun b => m (d, b)
def V1 (d : Dev nD) : Valuation τ sig (Elt F) := StableHlo.after (opsPre (F := F)) (V0 m d)
def fIof (d : Dev nD) : Buf (Elt F) (iLoc d) := V1 m d i'
def fWof (d : Dev nD) : Buf (Elt F) (wLoc d) := V1 m d w'
def fOof (d : Dev nD) : Buf (Elt F) (oLoc d) := V1 m d o'
def V2 (d : Dev nD) : Valuation τ sig (Elt F) := Function.update (V1 m d) o' (gathered (F := F) (fIof m d) (fWof m d))
def V3 (d : Dev nD) : Valuation τ sig (Elt F) := StableHlo.after (opsPost (F := F)) (V2 m d)

/-- The call's payloads at those contents. -/
abbrev PP : (K (F := F)).Pay (nD := nD) (Val := Elt F) (Name := ℕ) (U := UU) := P (F := F) (fIof m) (fWof m) (fOof m)

set_option maxRecDepth 8192 in
/-- After the first line the pair-number buffer holds the pair numbers, -/
theorem V1_i (d : Dev nD) : (V1 m d i' : S16384.Idx → BitVec 32) = Cert.Spec.idxVec (m (d, a0')) := by
  unfold V1
  after_results
  exact Cert.Proof.HostIdx.pairNumbers_eq _ _ _ _ _

set_option maxRecDepth 8192 in
/-- the table's buffer the table padded with 77 columns, -/
theorem V1_w (d : Dev nD) : (V1 m d w' : S22801x128.Idx → Elt F .f32)
    = pad S22801x128 ![0, 0] ![0, 77] ![0, 0] (m (d, a1') : S22801x51.Idx → Elt F .f32)
        (sitofp .f32 (constantI S_ 32 0#32) : S_.Idx → Elt F .f32) Facts₀.pads_S22801x51_S22801x128_000_0770 Facts₀.h_S_ := by
  unfold V1
  after_results
  simp only [StableHlo.TRef.toBuf, StableHlo.TRef.ofBuf, cast_eq]
  rfl

set_option maxRecDepth 8192 in
/-- and the arguments what they held. -/
theorem V1_a0 (d : Dev nD) : V1 m d a0' = m (d, a0') := by
  unfold V1
  after_results
  rfl
set_option maxRecDepth 8192 in
theorem V1_a1 (d : Dev nD) : V1 m d a1' = m (d, a1') := by
  unfold V1
  after_results
  rfl

/-- The padded table at a column of the table is the table. -/
theorem V1_w_apply (d : Dev nD) (r : Fin 22801) (q : Fin 51) (hq : q.val < 128) :
    (V1 m d w' : S22801x128.Idx → Elt F .f32) (ix2 r (⟨q.val, hq⟩ : Fin 128)) = (m (d, a1') : S22801x51.Idx → Elt F .f32) (ix2 r q) := by
  rw [V1_w]
  refine pad_apply_of_inside _ _ _ _ _ _ _ (ix2 r (⟨q.val, hq⟩ : Fin 128)) (ix2 r q) (fun a => ?_)
  match a with
  | ⟨0, _⟩ => show r.val = 0 + r.val * (0 + 1); omega
  | ⟨1, _⟩ => show q.val = 0 + q.val * (0 + 1); omega

set_option maxRecDepth 8192 in
/-- After the second line the result buffer holds the first 51 columns of what the call left, -/
theorem V3_r (d : Dev nD) : (V3 m d r' : S16384x51.Idx → Elt F .f32)
    = extractStridedSlice S16384x51 ![0, 0] (gathered (F := F) (fIof m d) (fWof m d)) Facts₀.slices_S16384x128_S16384x51_0_0 := by
  unfold V3
  after_results
  unfold V2
  rw [Function.update_self]

set_option maxRecDepth 8192 in
theorem V3_a0 (d : Dev nD) : V3 m d a0' = m (d, a0') := by
  unfold V3
  after_results
  unfold V2
  rw [Function.update_of_ne (show a0' ≠ o' by decide)]
  exact V1_a0 m d
set_option maxRecDepth 8192 in
theorem V3_a1 (d : Dev nD) : V3 m d a1' = m (d, a1') := by
  unfold V3
  after_results
  unfold V2
  rw [Function.update_of_ne (show a1' ≠ o' by decide)]
  exact V1_a1 m d

/-- The pair numbers after the first line name table rows, inside the domain. -/
theorem fI_inb (hdom : ∀ d : Dev nD, Cert.Spec.InDomain (m (d, a0'))) (d : Dev nD) (j : S16384.Idx) :
    ((fIof m d : S16384.Idx → BitVec 32) j).toNat < 22801 := by
  unfold fIof
  rw [V1_i]
  exact Cert.Spec.word_lt (hdom d) _

/-- Inside the domain the result buffer ends at the specified function of the arguments. -/
theorem result_eq (hdom : ∀ d : Dev nD, Cert.Spec.InDomain (m (d, a0'))) (d : Dev nD) :
    (V3 m d r' : S16384x51.Idx → Elt F .f32) = Cert.Spec.G (F := F) (m (d, a0')) (m (d, a1')) := by
  rw [V3_r]
  funext y
  obtain ⟨r, q, rfl⟩ : ∃ (r : Fin 16384) (q : Fin 51), y = ix2 r q := ⟨y 0, y 1, eq_ix2 y⟩
  have hq : q.val < 128 := by have := q.isLt; omega
  rw [extractStridedSlice_apply _ _ _ (ix2 r q) (ix2 r (⟨q.val, hq⟩ : Fin 128)) (fun a => by
    match a with
    | ⟨0, _⟩ => show r.val = 0 + r.val; omega
    | ⟨1, _⟩ => show q.val = 0 + q.val; omega)]
  unfold gathered Cert.Spec.G
  show (fWof m d : S22801x128.Idx → Elt F .f32) (ix2 (gRow (fIof m d) ⟨r.val, _⟩) (⟨q.val, _⟩ : Fin 128)) = _
  unfold fWof
  rw [V1_w_apply m d _ q hq]
  refine congrArg (fun z => (m (d, a1') : S22801x51.Idx → Elt F .f32) (ix2 z q)) (Fin.ext ?_)
  show ((fIof m d : S16384.Idx → BitVec 32) (ix1 (⟨r.val, _⟩ : Fin 16384))).toNat % 22801 = (Cert.Spec.word (m (d, a0')) r).toNat % 22801
  unfold fIof
  rw [V1_i]
  rfl

end Run

/-! ## The launch: @main, the final memory, the run -/

section Launch

variable [FloatOps F]
variable (m : (ℓ : Loc nD τ sig) → Buf (Elt F) ℓ) (ρ : Dev nD → PrngReg)

/-- The call's three arrays, and the three the claim reads at the end. -/
abbrev T3 : Finset (DevRef τ sig) := {i', w', o'}
abbrev TF : Finset (DevRef τ sig) := {a0', a1', r'}

theorem T3_sub : T3 ⊆ Pipeline.ucRefs τ sig := by decide
theorem TF_sub : TF ⊆ Pipeline.ucRefs τ sig := by decide

omit [FloatOps F] in
theorem held_T3 (d : Dev nD) (W : Valuation τ sig (Elt F)) :
    (held (T d) T3 W : sProp 𝕄) = iprop((iLoc d ↦{fullShare} W i') ∗ (wLoc d ↦{fullShare} W w') ∗ oLoc d ↦{fullShare} W o') := by
  unfold held T3
  rw [SparseCore.bigSep_insert' (by decide), SparseCore.bigSep_insert' (by decide), bigSep_singleton]

omit [FloatOps F] in
theorem held_TF (d : Dev nD) (W : Valuation τ sig (Elt F)) :
    (held (T d) TF W : sProp 𝕄) = iprop((((d, a0') : Loc nD τ sig) ↦{fullShare} W a0') ∗ (((d, a1') : Loc nD τ sig) ↦{fullShare} W a1')
      ∗ ((d, r') : Loc nD τ sig) ↦{fullShare} W r') := by
  unfold held TF
  rw [SparseCore.bigSep_insert' (by decide), SparseCore.bigSep_insert' (by decide), bigSep_singleton]

/-- The three arrays of the call dealt to the 32 tiles: each tile its block of pair numbers and of the output and a read
    share of the table; the shares' remainders stay behind. An equality: read backwards it gathers them again. -/
theorem deal_eq (fI : (d : Dev nD) → Buf (Elt F) (iLoc d)) (fW : (d : Dev nD) → Buf (Elt F) (wLoc d)) (fO : (d : Dev nD) → Buf (Elt F) (oLoc d))
    (d : Dev nD) :
    (iprop((iLoc d ↦{fullShare} fI d) ∗ (wLoc d ↦{fullShare} fW d) ∗ oLoc d ↦{fullShare} fO d) : sProp 𝕄)
      = iprop(Cert.LibDealShares.rem (grid0.bound 0) (grid0.bound 1) (wLoc d) (fW d)
          ∗ bigSep Finset.univ fun c : Fin (grid0.bound 0) => bigSep Finset.univ fun i : Fin (grid0.bound 1) => goOf fI fW fO d (c, i)) := by
  have eI : (iLoc d ↦{fullShare} fI d : sProp 𝕄) = bigSep Finset.univ fun t : Tile => iLoc d ↦[iSet (tileL t)]{fullShare} fI d := by
    rw [← pointsTo_biUnion Finset.univ (ℓ := iLoc d) (fun t : Tile => iSet (tileL t)) iSets_disjoint, iSets_cover]; try rfl
  have eO : (oLoc d ↦{fullShare} fO d : sProp 𝕄) = bigSep Finset.univ fun t : Tile => oLoc d ↦[oSet (tileL t)]{fullShare} fO d := by
    rw [← pointsTo_biUnion Finset.univ (ℓ := oLoc d) (fun t : Tile => oSet (tileL t)) oSets_disjoint, oSets_cover]; try rfl
  have eW : (wLoc d ↦{fullShare} fW d : sProp 𝕄)
      = iprop(Cert.LibDealShares.rem (grid0.bound 0) (grid0.bound 1) (wLoc d) (fW d)
          ∗ bigSep Finset.univ fun t : Tile => wLoc d ↦{wq t.1 t.2} fW d) := by
    rw [bigSep_univ_prod (fun t : Tile => (wLoc d ↦{wq t.1 t.2} fW d : sProp 𝕄))]
    exact Cert.LibDealShares.deal (grid0.bound 0) (grid0.bound 1) (wLoc d) (fW d)
  rw [← bigSep_univ_prod (fun t : Tile => goOf fI fW fO d t)]
  unfold goOf
  rw [bigSep_sep', bigSep_sep', eI, eO, eW]
  refine BI.equiv_iff.mp ⟨Cert.LibDealShares.of_ent ?_, Cert.LibDealShares.of_ent ?_⟩
  · iintro ⟨HA, ⟨Hrem, HB⟩, HC⟩
    isplitl [Hrem]; · iexact Hrem
    isplitl [HA]; · iexact HA
    isplitl [HB]; · iexact HB
    iexact HC
  · iintro ⟨Hrem, HA, HB, HC⟩
    isplitl [HA]; · iexact HA
    isplitl [Hrem HB]
    · isplitl [Hrem]; · iexact Hrem
      iexact HB
    iexact HC

/-- The held set after the first line: the call's three arrays and the rest. -/
theorem held_V1 (d : Dev nD) :
    (held (d.tc : Thread nD τ) (Pipeline.ucRefs τ sig) (StableHlo.after (opsPre (F := F)) (V0 m d)) : sProp 𝕄)
      = iprop(((iLoc d ↦{fullShare} fIof m d) ∗ (wLoc d ↦{fullShare} fWof m d) ∗ oLoc d ↦{fullShare} fOof m d)
          ∗ held (T d) (Pipeline.ucRefs τ sig \ T3) (V1 m d)) := by
  show (held (T d) (Pipeline.ucRefs τ sig) (V1 m d) : sProp 𝕄) = _
  rw [held_sub_split (T d) T3_sub, held_T3]; rfl

/-- The held set after the call: the result array at the gathered rows, everything else as before. -/
theorem held_V2 (d : Dev nD) :
    (held (d.tc : Thread nD τ) (Pipeline.ucRefs τ sig) (V2 m d) : sProp 𝕄)
      = iprop(((iLoc d ↦{fullShare} fIof m d) ∗ (wLoc d ↦{fullShare} fWof m d)
            ∗ oLoc d ↦{fullShare} (gathered (F := F) (fIof m d) (fWof m d) : Buf (Elt F) (oLoc d)))
          ∗ held (T d) (Pipeline.ucRefs τ sig \ T3) (V1 m d)) := by
  show (held (T d) (Pipeline.ucRefs τ sig) (V2 m d) : sProp 𝕄) = _
  rw [held_sub_split (T d) T3_sub, held_T3,
    held_congr (T d) (S := Pipeline.ucRefs τ sig \ T3) (V := V2 m d) (V' := V1 m d) (fun b hb => by
      unfold V2
      refine Function.update_of_ne (fun e => ?_) _ _
      subst e
      exact (Finset.mem_sdiff.mp hb).2 (by decide))]
  unfold V2
  rw [Function.update_of_ne (show i' ≠ o' by decide), Function.update_of_ne (show w' ≠ o' by decide), Function.update_self]
  rfl

/-- What @main leaves the claim: the two arguments and the result, at what the second line left. -/
abbrev FIN (d : Dev nD) : sProp 𝕄 :=
  iprop((((d, a0') : Loc nD τ sig) ↦{fullShare} V3 m d a0') ∗ (((d, a1') : Loc nD τ sig) ↦{fullShare} V3 m d a1')
      ∗ ((d, r') : Loc nD τ sig) ↦{fullShare} V3 m d r')

theorem held_V3 (d : Dev nD) :
    (held (d.tc : Thread nD τ) (Pipeline.ucRefs τ sig) (StableHlo.after (opsPost (F := F)) (V2 m d)) : sProp 𝕄)
      = iprop(FIN m d ∗ held (T d) (Pipeline.ucRefs τ sig \ TF) (V3 m d)) := by
  show (held (T d) (Pipeline.ucRefs τ sig) (V3 m d) : sProp 𝕄) = _
  rw [held_sub_split (T d) TF_sub, held_TF]

/-- What the call takes for the two SparseCores is what their tiles take, and what it hands back what they hand back. -/
theorem st_eq (d : Dev nD) :
    (bigSep Finset.univ fun c : Fin ((K (F := F)).nCore 0) => (PP m).st 0 d c)
      = bigSep Finset.univ fun c : Fin (grid0.bound 0) => bigSep Finset.univ fun i : Fin (grid0.bound 1) => goOf (fIof m) (fWof m) (fOof m) d (c, i) := rfl
theorem dn_eq (d : Dev nD) :
    (bigSep Finset.univ fun c : Fin ((K (F := F)).nCore 0) => (PP m).dn 0 d c)
      = bigSep Finset.univ fun c : Fin (grid0.bound 0) => bigSep Finset.univ fun i : Fin (grid0.bound 1) =>
          goOf (fIof m) (fWof m) (fun d => (gathered (F := F) (fIof m d) (fWof m d) : Buf (Elt F) (oLoc d))) d (c, i) := rfl

/-- @main on device `d`'s TensorCore: the first line within the held arrays, the call, the second line. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq, show (fun b : Ref sig .tc => m ((SparseCore.T d).loc b)) = (fun b : Ref sig .tc => V0 m d b) from rfl,
    Pipeline.unscopedBufs_held]
  iintro ⟨#Hctx, Hst, ⟨Hb, Hheld, -, -⟩, -⟩
  iapply (wp_seq 𝒱 none Set.univ d (Pipeline.ucRefs τ sig) _ opsPre opsPre_sub opsPre_fresh (V0 m d)) $$ [Hb Hheld]
  · isplitl [Hb]; · iexact Hb
    iexact Hheld
  iintro ⟨Hb, Hheld⟩
  rw [wp_bind]
  ihave Hh := (Entails.of_eq (held_V1 m d)) $$ Hheld
  icases Hh with ⟨H3, Hrest⟩
  ihave Hd := (Entails.of_eq (deal_eq (fIof m) (fWof m) (fOof m) d)) $$ H3
  icases Hd with ⟨Hrem, Hgo⟩
  iapply ((K (F := F)).wp_run (D (F := F)) 𝒱 (EH := EH) (P := PP m) κ d 0) $$ [Hst Hgo Hb Hrem Hrest]
  isplitr; · iexact Hctx
  isplitl [Hst]; · iexact Hst
  isplitl [Hgo]; · iapply (Entails.of_eq (st_eq m d).symm); iexact Hgo
  iintro ⟨Hst, Hdn⟩
  ihave Hdn' := (Entails.of_eq (dn_eq m d)) $$ Hdn
  ihave H3 := (Entails.of_eq (deal_eq (fIof m) (fWof m) (fun d => (gathered (F := F) (fIof m d) (fWof m d) : Buf (Elt F) (oLoc d))) d).symm) $$ [Hrem Hdn']
  · isplitl [Hrem]; · iexact Hrem
    iexact Hdn'
  ihave Hheld := (Entails.of_eq (held_V2 m d).symm) $$ [H3 Hrest]
  · isplitl [H3]; · iexact H3
    iexact Hrest
  iapply (wp_seq 𝒱 none Set.univ d (Pipeline.ucRefs τ sig) _ opsPost opsPost_sub opsPost_fresh (V2 m d)) $$ [Hb Hheld]
  · isplitl [Hb]; · iexact Hb
    iexact Hheld
  iintro ⟨Hb, Hheld⟩
  ihave Hf := (Entails.of_eq (held_V3 m d)) $$ Hheld
  icases Hf with ⟨Hfin, -⟩
  rw [wp_pure]; imodintro
  isplitl [Hst]; · iexact Hst
  iexact Hfin

/-- What the final memory holds at the three arrays. -/
def fq (d : Dev nD) (s' : Phys nD τ sig (Elt F)) : Prop :=
  s'.mem.mem ((d, a0') : Loc nD τ sig) = V3 m d a0' ∧ s'.mem.mem ((d, a1') : Loc nD τ sig) = V3 m d a1'
    ∧ s'.mem.mem ((d, r') : Loc nD τ sig) = V3 m d r'

set_option maxRecDepth 16384 in
theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := ((d, a0') : Loc nD τ sig)) (I := Finset.univ) (q := fullShare) (f := V3 m d a0'))) $$ [HSI H0]
  · isplitl [HSI] <;> iassumption
  icases H with ⟨%h0, HSI, -⟩
  ihave H := (persistent_entails_right (SI_pointsTo_agree (st := s') (ℓ := ((d, a1') : Loc nD τ sig)) (I := Finset.univ) (q := fullShare) (f := V3 m d a1'))) $$ [HSI H1]
  · isplitl [HSI] <;> iassumption
  icases H with ⟨%h1, HSI, -⟩
  ihave H := (SI_pointsTo_agree (st := s') (ℓ := ((d, r') : Loc nD τ sig)) (I := Finset.univ) (q := fullShare) (f := V3 m d r')) $$ [HSI Hr]
  · isplitl [HSI] <;> iassumption
  icases H with %h2
  ipureintro
  exact ⟨funext fun i => h0 i (Finset.mem_univ i), funext fun i => h1 i (Finset.mem_univ i), funext fun i => h2 i (Finset.mem_univ i)⟩

/-- The run's post: the result at the specified function of the arguments, the arguments unchanged. -/
def QC : PUnit × MemSt nD τ sig (Elt F) → Prop := fun r => ∀ c : Dev nD,
  r.2.mem ((c.tc : Thread nD τ).loc main_v9) = Cert.Spec.G (F := F) (m ((c.tc : Thread nD τ).loc main_arg0)) (m ((c.tc : Thread nD τ).loc main_arg1))
  ∧ r.2.mem ((c.tc : Thread nD τ).loc main_arg0) = m ((c.tc : Thread nD τ).loc main_arg0)
  ∧ r.2.mem ((c.tc : Thread nD τ).loc main_arg1) = m ((c.tc : Thread nD τ).loc main_arg1)

/-- Every weakly fair execution of the program's threads, from a memory whose labels lie in the domain, terminates
    with the result array at the specified function of the arguments and the arguments unchanged. -/
theorem run_main [∀ e, Nonempty (Elt F e)] (hdom : ∀ d : Dev nD, Cert.Spec.InDomain (m (d, a0'))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (fIof m) (fWof m) (fOof m) facts (fI_inb m hdom))
    (fun q _ => match q with | 0 => SparseCore.Cfg.VecSplit.of_plain (vecSplit (fIof m) (fWof m) (fOof m)))
    m ρ main (fun _ => iprop(emp)) (FIN m) (u₀ (F := F)) (sep_elim_left.trans (hu₀ (fIof m) (fWof m) (fOof m))) (hmain m ρ) (fq m) (hfin m) (QC m)
    (fun s' h c => ⟨((h c).2.2).trans (result_eq m hdom c), ((h c).1).trans (V3_a0 m c), ((h c).2.1).trans (V3_a1 m c)⟩)

end Launch

end Cert.Proof.KI

end
-- ==== Proof.KB.Setup.lean ====
/-
  The kernel's program as the launch theorem of a SparseCore program sees it, and what its one call moves.

  The call reads the vector of pair numbers (16384 words) and the table padded to 128 columns (22801 rows), and writes
  a [16384, 128] array. The 2 x 16 tiles work side by side: tile (c, s) owns rows 1024 s + 512 c ... + 511 of the pair
  numbers and of the output — the 32 blocks are pairwise disjoint and cover both arrays — and every tile reads the whole
  table, so the table goes out as 32 read shares of the full share. Row r of the output ends as row `fI r` of the
  table (`gathered`), where `fI` is what the pair-number vector holds at the call.
-/
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«207668_g20005957664788_cont_8to1_364_6_alg».proof.Proof.Gen.Kernel
import proofs.«207668_g20005957664788_cont_8to1_364_6_alg».proof.Proof.Gen.Kernel.Skeleton
import proofs.«207668_g20005957664788_cont_8to1_364_6_alg».proof.Proof.LibDealShares

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three arrays of the call and the tiles' scratch -/

/-- The pair numbers, the padded table, the call's result, as locations of device `d`. -/
abbrev iLoc (d : Dev nD) : Loc nD τ sig := (SparseCore.T d).loc main_v6
abbrev wLoc (d : Dev nD) : Loc nD τ sig := (SparseCore.T d).loc main_v7
abbrev oLoc (d : Dev nD) : Loc nD τ sig := (SparseCore.T d).loc main_v8

/-- A tile's grid point from its SparseCore and its number among the SparseCore's tiles. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The block of 512 pair numbers, and the block of 512 output rows, that the tile at `L` owns. -/
abbrev iRect (L : grid0.Coords) : Rect S16384 := Rect.unit (s := S16384) (k0_off1 L) S512.size (k0_off1_inb L)
abbrev oRect (L : grid0.Coords) : Rect S16384x128 := Rect.unit (s := S16384x128) (k0_off2 L) S512x128.size (k0_off2_inb L)
abbrev iBlk (L : grid0.Coords) : Memref sig .scVector .hbm S512 .i32 :=
  (Memref.whole main_v6_scv : Memref sig .scVector .hbm S16384 .i32).slice (iRect L) (fun _ => rfl)
abbrev oBlk (L : grid0.Coords) : Memref sig .scVector .hbm S512x128 .f32 :=
  (Memref.whole main_v8_scv : Memref sig .scVector .hbm S16384x128 .f32).slice (oRect L) (fun _ => rfl)
abbrev iSet (L : grid0.Coords) : Finset S16384.Idx := (iBlk L).view.set
abbrev oSet (L : grid0.Coords) : Finset S16384x128.Idx := (oBlk L).view.set

theorem iSet_eq (L : grid0.Coords) : iSet L = (iRect L).set := View.set_slice_whole _ _
theorem oSet_eq (L : grid0.Coords) : oSet L = (oRect L).set := View.set_slice_whole _ _

/-- An index of the pair-number vector lies in the block of tile (c, s) iff it lies in 1024 s + 512 c ... + 511. -/
theorem mem_iSet (L : grid0.Coords) (j : S16384.Idx) :
    j ∈ iSet L ↔ 1024 * (L 1).val + 512 * (L 0).val ≤ (j 0).val ∧ (j 0).val < 1024 * (L 1).val + 512 * (L 0).val + 512 := by
  rw [iSet_eq, Rect.mem_set_unit, k0_off1_eq]
  constructor
  · intro h; exact h 0
  · intro h a; match a with | ⟨0, _⟩ => exact h

/-- A row of the output lies in the block of tile (c, s) iff its number lies in 1024 s + 512 c ... + 511. -/
theorem mem_oSet (L : grid0.Coords) (j : S16384x128.Idx) :
    j ∈ oSet L ↔ 1024 * (L 1).val + 512 * (L 0).val ≤ (j 0).val ∧ (j 0).val < 1024 * (L 1).val + 512 * (L 0).val + 512 := by
  rw [oSet_eq, Rect.mem_set_unit, k0_off2_eq]
  constructor
  · intro h; exact h 0
  · intro h a
    match a with
    | ⟨0, _⟩ => exact h
    | ⟨1, _⟩ =>
      refine ⟨Nat.zero_le _, ?_⟩
      have := idx2_lt1 j
      show (j 1).val < 0 + 128
      omega

/-- The tiles of the grid, as pairs. -/
abbrev Tile : Type := Fin (grid0.bound 0) × Fin (grid0.bound 1)
abbrev tileL (t : Tile) : grid0.Coords := coordsV t.1 t.2

theorem tile_bounds (t : Tile) : (tileL t 0).val < 2 ∧ (tileL t 1).val < 16 := ⟨t.1.isLt, t.2.isLt⟩

theorem tile_ne {t t' : Tile} (h : t ≠ t') : (tileL t 0).val ≠ (tileL t' 0).val ∨ (tileL t 1).val ≠ (tileL t' 1).val := by
  by_contra hc
  have h0 : (tileL t 0).val = (tileL t' 0).val := by_contra fun e => hc (Or.inl e)
  have h1 : (tileL t 1).val = (tileL t' 1).val := by_contra fun e => hc (Or.inr e)
  exact h (Prod.ext (Fin.ext h0) (Fin.ext h1))

theorem iSets_disjoint : ∀ t ∈ (Finset.univ : Finset Tile), ∀ t' ∈ (Finset.univ : Finset Tile), t ≠ t' → Disjoint (iSet (tileL t)) (iSet (tileL t')) := by
  intro t _ t' _ h
  rw [Finset.disjoint_left]
  intro j hj hj'
  rw [mem_iSet] at hj hj'
  have b := tile_bounds t; have b' := tile_bounds t'
  rcases tile_ne h with e | e <;> omega

theorem oSets_disjoint : ∀ t ∈ (Finset.univ : Finset Tile), ∀ t' ∈ (Finset.univ : Finset Tile), t ≠ t' → Disjoint (oSet (tileL t)) (oSet (tileL t')) := by
  intro t _ t' _ h
  rw [Finset.disjoint_left]
  intro j hj hj'
  rw [mem_oSet] at hj hj'
  have b := tile_bounds t; have b' := tile_bounds t'
  rcases tile_ne h with e | e <;> omega

/-- The tile that owns row `n` (n < 16384): SparseCore (n / 512) mod 2, tile n / 1024 of it. -/
def ownerOf (n : ℕ) (hn : n < 16384) : Tile := (⟨(n / 512) % 2, Nat.mod_lt _ (by decide)⟩, ⟨n / 1024, by show n / 1024 < 16; omega⟩)

theorem iSets_cover : (Finset.univ : Finset Tile).biUnion (fun t => iSet (tileL t)) = Finset.univ := by
  ext j
  simp only [Finset.mem_biUnion, Finset.mem_univ, true_and, iff_true]
  have hj : (j 0).val < 16384 := (j 0).isLt
  refine ⟨ownerOf (j 0).val hj, ?_⟩
  rw [mem_iSet]
  show 1024 * ((j 0).val / 1024) + 512 * (((j 0).val / 512) % 2) ≤ (j 0).val ∧ (j 0).val < 1024 * ((j 0).val / 1024) + 512 * (((j 0).val / 512) % 2) + 512
  omega

theorem oSets_cover : (Finset.univ : Finset Tile).biUnion (fun t => oSet (tileL t)) = Finset.univ := by
  ext j
  simp only [Finset.mem_biUnion, Finset.mem_univ, true_and, iff_true]
  have hj : (j 0).val < 16384 := (j 0).isLt
  refine ⟨ownerOf (j 0).val hj, ?_⟩
  rw [mem_oSet]
  show 1024 * ((j 0).val / 1024) + 512 * (((j 0).val / 512) % 2) ≤ (j 0).val ∧ (j 0).val < 1024 * ((j 0).val / 1024) + 512 * (((j 0).val / 512) % 2) + 512
  omega

/-! ## What the call computes -/

/-- The table row a pair number names, reduced modulo the table's height (no change for a number in range). -/
def gRow (fI : S16384.Idx → BitVec 32) (r : Fin 16384) : Fin 22801 :=
  ⟨(fI (ix1 r)).toNat % 22801, Nat.mod_lt _ (by decide)⟩

/-- The gathered array: row `r` is row `fI r` of the table. -/
def gathered (fI : S16384.Idx → BitVec 32) (fW : S22801x128.Idx → Elt F .f32) : S16384x128.Idx → Elt F .f32 :=
  fun y => fW (ix2 (gRow fI ⟨(y 0).val, idx2_lt0 y⟩) ⟨(y 1).val, idx2_lt1 y⟩)

/-! ## What the handshakes carry -/

variable (fI : (d : Dev nD) → Buf (Elt F) (iLoc d)) (fW : (d : Dev nD) → Buf (Elt F) (wLoc d)) (fO : (d : Dev nD) → Buf (Elt F) (oLoc d))

/-- Tile (c, i)'s read share of the table. -/
abbrev wq (c : Fin (grid0.bound 0)) (i : Fin (grid0.bound 1)) : PosShare TreeShare := Cert.LibDealShares.sh c.val i.val

/-- What tile `t` is handed: its block of pair numbers, its share of the table, its block of the output as it stands; -/
def goOf (d : Dev nD) (t : Tile) : sProp 𝕄 :=
  iprop((iLoc d ↦[iSet (tileL t)]{fullShare} fI d) ∗ (wLoc d ↦{wq t.1 t.2} fW d) ∗ oLoc d ↦[oSet (tileL t)]{fullShare} fO d)
/-- and what it hands back: the same, its output block holding the gathered rows. -/
def tdOf (d : Dev nD) (t : Tile) : sProp 𝕄 :=
  iprop((iLoc d ↦[iSet (tileL t)]{fullShare} fI d) ∗ (wLoc d ↦{wq t.1 t.2} fW d)
    ∗ oLoc d ↦[oSet (tileL t)]{fullShare} (gathered (F := F) (fI d) (fW d) : Buf (Elt F) (oLoc d)))

/-- The tile a SparseCore of the call's grid and a task number name. -/
def tl (c : Fin ((K (F := F)).nCore 0)) (i : Fin ((K (F := F)).nSub 0)) : Tile := (⟨c.val, c.isLt⟩, ⟨i.val, i.isLt⟩)

/-- The one call's payloads: a SparseCore takes and brings back what its sixteen tiles do. -/
def P : (K (F := F)).Pay (nD := nD) (Val := Elt F) (Name := ℕ) (U := UU) where
  st := fun q d c => match q with | 0 => bigSep Finset.univ fun i : Fin ((K (F := F)).nSub 0) => goOf fI fW fO d (tl c i)
  dn := fun q d c => match q with | 0 => bigSep Finset.univ fun i : Fin ((K (F := F)).nSub 0) => tdOf fI fW d (tl c i)
  go := fun q d c i => match q with | 0 => goOf fI fW fO d (tl c i)
  td := fun q d c i => match q with | 0 => tdOf fI fW d (tl c i)
  x := fun _ _ => iprop(emp)

instance goOf_storable (d : Dev nD) (t : Tile) : BI.Storable (upEmb : UEmb _ 𝕄) (goOf fI fW fO d t) := by
  unfold goOf; infer_instance
instance tdOf_storable (d : Dev nD) (t : Tile) : BI.Storable (upEmb : UEmb _ 𝕄) (tdOf fI fW d t) := by
  unfold tdOf; infer_instance

instance P_storable : (P (F := F) fI fW fO).IsStorable where
  st q d c := match q with
    | 0 => (inferInstance : BI.Storable (upEmb : UEmb _ 𝕄) (bigSep Finset.univ fun i : Fin ((K (F := F)).nSub 0) => goOf fI fW fO d (tl c i)))
  dn q d c := match q with
    | 0 => (inferInstance : BI.Storable (upEmb : UEmb _ 𝕄) (bigSep Finset.univ fun i : Fin ((K (F := F)).nSub 0) => tdOf fI fW d (tl c i)))
  go q d c i := match q with
    | 0 => (inferInstance : BI.Storable (upEmb : UEmb _ 𝕄) (goOf fI fW fO d (tl c i)))
  td q d c i := match q with
    | 0 => (inferInstance : BI.Storable (upEmb : UEmb _ 𝕄) (tdOf fI fW d (tl c i)))

/-- Handing a resource on whole, and taking another back whole. -/
theorem split_id (A B : sProp 𝕄) : A ⊢ |={Set.univ}=> iprop(A ∗ (B -∗ B)) := by
  iintro H; imodintro
  isplitl [H]; · iexact H
  iintro H; iexact H

/-- A SparseCore's operands are its tiles' and its results theirs: nothing to rearrange. -/
theorem vecSplit : (K (F := F)).VecSplit' (P fI fW fO) 0 := by
  intro d c
  exact split_id _ _

/-! ## The launch element of the ghost state: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fI fW fO).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) fI fW fO).x q thr) = bigSep Finset.univ fun _ => iprop(emp) from
    bigSep_congr fun _ _ => bigSep_univ_of_subsingleton (0 : Fin 1), bigSep_emp']
  iempintro

end Cert.Proof.KB

end
-- ==== Proof.KB.Value.lean ====
/-
  What a tile's three transfers leave in its block of the output, element by element.

  The fetch lands the tile's 512 pair numbers in the list buffer; the gather lands, in row k of the row buffer, the table
  row that the k-th of them names; the write-out lands row k of the row buffer in row (block start + k) of the output.
  So element (block start + k, f) of the output is element (fI (block start + k), f) of the table: the gathered array's.
-/
import proofs.«207668_g20005957664788_cont_8to1_364_6_alg».proof.Proof.KB.Setup
import proofs.«207668_g20005957664788_cont_8to1_364_6_alg».proof.Proof.LibGatherPayload

noncomputable section

namespace Cert.Proof.KB

open Cert.Kernel Cert.Kernel.Gen

open Idealize.ShloMosaic
open Idealize.ShloMosaic.SparseCore (S V T)
open Idealize.ShloMosaic.ValueIdx

variable {F : FTy → Type}

local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)
local notation "wV" => (Memref.whole Cert.Kernel.main_v7_scv : Memref Cert.Kernel.sig Kind.scVector Space.hbm Cert.Kernel.S22801x128 EltTy.f32)

/-- The whole rectangle places an index at itself. -/
theorem whole_emb (s : Shape) (x : s.Idx) : (Rect.whole s).emb x = x := by
  funext a
  apply Fin.ext
  have h := Rect.emb_apply (r := Rect.whole s) x a
  simpa [Rect.whole] using h

/-- A buffer written once, through the whole of a view, reads through that view as what was written. -/
theorem read_whole_write {κ : Kind} {sp : Space} {s : Shape} {e : EltTy} (v : View sig κ sp s e) (f : v.ty.Contents (Elt F))
    (w : s.Idx → Elt F e) (y : s.Idx) :
    v.read (Elt F) (v.writes (Elt F) f [⟨Rect.whole s, w⟩]) y = w y := by
  have h := View.read_writes_cons_emb (Val := Elt F) v f (Rect.whole s) w [] y
  rwa [whole_emb] at h

/-- The block of pair numbers tile `L` fetches, entry `k`: pair number (block start + k). -/
theorem iBlk_read (L : grid0.Coords) (fI : S16384.Idx → BitVec 32) (k : Fin 512)
    (hk : 1024 * (L 1).val + 512 * (L 0).val + k.val < 16384) :
    (iBlk L).view.read (Elt F) (fI : (iBlk L).view.ty.Contents (Elt F)) (ix1 k)
      = fI (ix1 (⟨1024 * (L 1).val + 512 * (L 0).val + k.val, hk⟩ : Fin 16384)) := by
  refine (View.read_apply _ _).trans ((cast_eq _ _).trans ?_)
  refine congrArg fI (funext fun a => ?_)
  match a with
  | ⟨0, _⟩ =>
    apply Fin.ext
    show ((iRect L).emb (ix1 k) 0 : Nat) = _
    rw [Rect.emb_apply]
    show k0_off1 L 0 + 1 * k.val = _
    rw [k0_off1_eq]
    show 1024 * (L 1).val + 512 * (L 0).val + 1 * k.val = 1024 * (L 1).val + 512 * (L 0).val + k.val
    omega

/-- The table read through the whole-array slice the kernel takes of it is the table. -/
theorem wSlice_read (fW : S22801x128.Idx → Elt F .f32) (hs) (j : S22801x128.Idx) :
    ((wV).slice (Rect.unit (s := S22801x128) ![0, 0] S22801x128.size inb_S22801x128_S22801x128_0_0) hs).view.read (Elt F)
      (fW : ((wV).slice (Rect.unit (s := S22801x128) ![0, 0] S22801x128.size inb_S22801x128_S22801x128_0_0) hs).view.ty.Contents (Elt F)) j = fW j := by
  refine (View.read_apply _ _).trans ((cast_eq _ _).trans ?_)
  refine congrArg fW (funext fun a => ?_)
  apply Fin.ext
  show ((Rect.unit (s := S22801x128) ![0, 0] S22801x128.size inb_S22801x128_S22801x128_0_0).emb j a : Nat) = _
  rw [Rect.emb_apply]
  match a with
  | ⟨0, _⟩ => show 0 + 1 * (j 0).val = (j 0).val; omega
  | ⟨1, _⟩ => show 0 + 1 * (j 1).val = (j 1).val; omega

/-- An element of tile `L`'s output block is the placed image of its coordinates inside the block. -/
theorem oBlk_emb (L : grid0.Coords) (y : S512x128.Idx) (i : S16384x128.Idx)
    (h0 : (i 0).val = 1024 * (L 1).val + 512 * (L 0).val + (y 0).val) (h1 : (i 1).val = (y 1).val) :
    (oBlk L).view.emb y = i := by
  funext a
  match a with
  | ⟨0, _⟩ =>
    apply Fin.ext
    show ((oRect L).emb y 0 : Nat) = _
    rw [Rect.emb_apply]
    show k0_off2 L 0 + 1 * (y 0).val = _
    rw [k0_off2_eq]
    show 1024 * (L 1).val + 512 * (L 0).val + 1 * (y 0).val = (i 0).val
    omega
  | ⟨1, _⟩ =>
    apply Fin.ext
    show ((oRect L).emb y 1 : Nat) = _
    rw [Rect.emb_apply]
    show k0_off2 L 1 + 1 * (y 1).val = _
    rw [k0_off2_eq]
    show 0 + 1 * (y 1).val = (i 1).val
    omega

/-- The gathered rows are the specification's: entry (k, f) of a gather whose k-th row is the table row that pair number
    (block start + k) names is entry (block start + k, f) of the gathered array. -/
theorem gathered_at (fI : S16384.Idx → BitVec 32) (fW : S22801x128.Idx → Elt F .f32)
    (hI : ∀ j : S16384.Idx, (fI j).toNat < 22801) (off : ℕ)
    (r : Fin 512 → Fin 22801)
    (hr : ∀ (k : Fin 512) (hk : off + k.val < 16384), (r k).val = (fI (ix1 (⟨off + k.val, hk⟩ : Fin 16384))).toNat)
    (y : S512x128.Idx) (i : S16384x128.Idx) (h0 : (i 0).val = off + (y 0).val) (h1 : (i 1).val = (y 1).val) :
    SparseCore.gatherPayload (F := F) (s₀ := S22801x128) (s := S512x128) gathers_S22801x128_S512x128 fW r y = gathered fI fW i := by
  rw [Cert.LibGatherPayload.gatherPayload_apply]
  unfold gathered
  refine congrArg fW (funext fun a => ?_)
  have hi0 : (i 0).val < 16384 := idx2_lt0 i
  have hy0 : (y 0).val < 512 := idx2_lt0 y
  match a with
  | ⟨0, _⟩ =>
    apply Fin.ext
    show (r (⟨(y 0).val, hy0⟩ : Fin 512)).val = (fI (ix1 (⟨(i 0).val, idx2_lt0 i⟩ : Fin 16384))).toNat % 22801
    rw [Nat.mod_eq_of_lt (hI _), hr ⟨(y 0).val, hy0⟩ (by show off + (y 0).val < 16384; omega)]
    refine congrArg (fun n : Fin 16384 => (fI (ix1 n)).toNat) (Fin.ext ?_)
    show off + (y 0).val = (i 0).val
    omega
  | ⟨1, _⟩ => exact Fin.ext h1.symm

/-- The output block after its one whole write, at an element of the block: the written payload at the element's
    coordinates inside the block. -/
theorem out_block_value (L : grid0.Coords) (G : S16384x128.Idx → Elt F .f32) (fO : (oBlk L).view.ty.Contents (Elt F))
    (pay : S512x128.Idx → Elt F .f32)
    (hpay : ∀ (y : S512x128.Idx) (i : S16384x128.Idx), (i 0).val = 1024 * (L 1).val + 512 * (L 0).val + (y 0).val →
      (i 1).val = (y 1).val → pay y = G i)
    (i : S16384x128.Idx) (hi : i ∈ oSet L) :
    ((oBlk L).view.writes (Elt F) fO [⟨Rect.whole S512x128, pay⟩] : S16384x128.Idx → Elt F .f32) i = G i := by
  rw [mem_oSet] at hi
  have hi1 : (i 1).val < 128 := idx2_lt1 i
  let y : S512x128.Idx := ix2 (⟨(i 0).val - (1024 * (L 1).val + 512 * (L 0).val), by omega⟩ : Fin 512) (⟨(i 1).val, hi1⟩ : Fin 128)
  have h0 : (i 0).val = 1024 * (L 1).val + 512 * (L 0).val + (y 0).val := by
    show (i 0).val = 1024 * (L 1).val + 512 * (L 0).val + ((i 0).val - (1024 * (L 1).val + 512 * (L 0).val)); omega
  have h1 : (i 1).val = (y 1).val := rfl
  have he := oBlk_emb L y i h0 h1
  have hr := read_whole_write (F := F) (oBlk L).view fO pay y
  rw [View.read_apply, he] at hr
  exact ((cast_eq _ _).symm.trans hr).trans (hpay y i h0 h1)

/-- What the tile's write-out carries — the row buffer after the gather, read whole — is, at (k, f), the gathered
    array's entry (block start + k, f). -/
theorem tile_pay (L : grid0.Coords) (fI : S16384.Idx → BitVec 32) (fW : S22801x128.Idx → Elt F .f32)
    (hI : ∀ j : S16384.Idx, (fI j).toNat < 22801)
    (fs : (sV).view.ty.Contents (Elt F)) (fr : (rV).view.ty.Contents (Elt F)) (hs)
    (hn : S512.numel = S512x128.size gathers_S22801x128_S512x128.axis')
    (hin : ∀ x, ((sV).view.read (Elt F) (View.write (Elt F) (sV).view fs
        (ReadAs.same.apply ((iBlk L).view.read (Elt F) (fI : (iBlk L).view.ty.Contents (Elt F)))) Finset.univ) x).toNat
          < S22801x128.size gathers_S22801x128_S512x128.axis)
    (y : S512x128.Idx) (i : S16384x128.Idx) (h0 : (i 0).val = 1024 * (L 1).val + 512 * (L 0).val + (y 0).val)
    (h1 : (i 1).val = (y 1).val) :
    ReadAs.same.apply ((rV).view.read (Elt F) ((rV).view.writes (Elt F) fr [⟨Rect.whole S512x128,
        SparseCore.gatherPayload (F := F) gathers_S22801x128_S512x128
          (((wV).slice (Rect.unit (s := S22801x128) ![0, 0] S22801x128.size inb_S22801x128_S22801x128_0_0) hs).view.read (Elt F)
            (fW : ((wV).slice (Rect.unit (s := S22801x128) ![0, 0] S22801x128.size inb_S22801x128_S22801x128_0_0) hs).view.ty.Contents (Elt F)))
          (SparseCore.rows ((sV).view.read (Elt F) (View.write (Elt F) (sV).view fs
            (ReadAs.same.apply ((iBlk L).view.read (Elt F) (fI : (iBlk L).view.ty.Contents (Elt F)))) Finset.univ)) hn hin)⟩])) y
      = gathered fI fW i := by
  show (rV).view.read (Elt F) ((rV).view.writes (Elt F) fr [⟨Rect.whole S512x128, _⟩]) y = _
  refine (read_whole_write (F := F) (rV).view fr _ y).trans ?_
  have hsrc : ((wV).slice (Rect.unit (s := S22801x128) ![0, 0] S22801x128.size inb_S22801x128_S22801x128_0_0) hs).view.read (Elt F)
      (fW : ((wV).slice (Rect.unit (s := S22801x128) ![0, 0] S22801x128.size inb_S22801x128_S22801x128_0_0) hs).view.ty.Contents (Elt F)) = fW :=
    funext fun j => wSlice_read fW hs j
  rw [hsrc]
  refine gathered_at fI fW hI (1024 * (L 1).val + 512 * (L 0).val) _ (fun k hk => ?_) y i h0 h1
  refine (Cert.LibGatherPayload.rows_val (F := F) (o := 512) (z := 22801) _ hn hin k).trans ?_
  refine congrArg BitVec.toNat ?_
  rw [View.write_whole_univ]
  simp only [Memref.view_whole, View.read_whole]
  exact iBlk_read (F := F) L fI k hk

end Cert.Proof.KB

end
-- ==== Proof.KB.Tile.lean ====
/-
  One tile's task: fetch its 512 pair numbers, gather the table rows they name, write the 512 rows out.
-/
import proofs.«207668_g20005957664788_cont_8to1_364_6_alg».proof.Proof.KB.Setup
import proofs.«207668_g20005957664788_cont_8to1_364_6_alg».proof.Proof.KB.Value

set_option pp.maxSteps 20000
set_option pp.deepTerms false

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v6_scv : Memref Cert.Kernel.sig Kind.scVector Space.hbm Cert.Kernel.S16384 EltTy.i32)
local notation "wV" => (Memref.whole Cert.Kernel.main_v7_scv : Memref Cert.Kernel.sig Kind.scVector Space.hbm Cert.Kernel.S22801x128 EltTy.f32)
local notation "oV" => (Memref.whole Cert.Kernel.main_v8_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

section Tile

variable [FloatOps F] (d : Dev nD) (L : grid0.Coords)

omit [FloatOps F] in
theorem pts_iBlk (f : Buf (Elt F) (iLoc d)) :
    ((iBlk L).view.loc (V d (cV L) (jV L)) ↦[(iBlk L).view.set]{fullShare} f : sProp 𝕄) = iLoc d ↦[iSet L]{fullShare} f := rfl
omit [FloatOps F] in
theorem pts_oBlk (f : Buf (Elt F) (oLoc d)) :
    ((oBlk L).view.loc (V d (cV L) (jV L)) ↦[(oBlk L).view.set]{fullShare} f : sProp 𝕄) = oLoc d ↦[oSet L]{fullShare} f := rfl
omit [FloatOps F] in
theorem pts_wV (q : PosShare TreeShare) (f : Buf (Elt F) (wLoc d)) :
    ((wV).view.loc (V d (cV L) (jV L)) ↦{q} f : sProp 𝕄) = wLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's three DMA semaphores: the gather's, the fetch's, the write-out's. -/
abbrev cGcell (d : Dev nD) (c : Fin τ.nSC) (i : Fin τ.nSub) : GSem nD τ sig := (V d c i, .dma cc0_scratch2.sem)
abbrev cFcell (d : Dev nD) (c : Fin τ.nSC) (i : Fin τ.nSub) : GSem nD τ sig := (V d c i, .dma cc0_scoped0.sem)
abbrev cOcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cFcell d (cV L) (jV L)) 0 ∗ semVal (cOcell d (cV L) (jV L)) 0
          ∗ bigSep ((((ownCells (V d (cV L) (jV L))).erase (cGcell d (cV L) (jV L))).erase (cFcell d (cV L) (jV L))).erase (cOcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cFcell]; decide, (mem_ownCells (g := cFcell d (cV L) (jV L))).mpr ⟨rfl, by
      show (SemLoc.dma cc0_scoped0.sem : SemLoc sig).isScoped .scVector = true; decide⟩⟩),
    SparseCore.bigSep_erase' (Finset.mem_erase.mpr ⟨by simp [cFcell, cOcell]; decide, Finset.mem_erase.mpr ⟨by simp [cGcell, cOcell]; decide,
      (mem_ownCells (g := cOcell d (cV L) (jV L))).mpr ⟨rfl, by show (SemLoc.dma cc0_scoped1.sem : SemLoc sig).isScoped .scVector = true; decide⟩⟩⟩)]

omit [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- What the fetch leaves in the list buffer is the tile's block of pair numbers, each of which names a table row. -/
theorem list_inb (fI : Buf (Elt F) (iLoc d)) (hI : ∀ j : S16384.Idx, ((fI : S16384.Idx → BitVec 32) j).toNat < 22801)
    (fs : Buf (Elt F) ((V d (cV L) (jV L)).loc cc0_scratch0)) (pay : S512.Idx → Elt F .i32)
    (hpay : pay = (iBlk L).view.read (Elt F) fI) :
    ∀ x, ((sV).view.read (Elt F) (View.write (Elt F) (sV).view fs pay Finset.univ) x).toNat < S22801x128.size gathers_S22801x128_S512x128.axis := by
  subst hpay; intro x
  rw [View.write_whole_univ]
  simp only [Memref.view_whole, View.read_whole]
  rw [show (iBlk L).view.read (Elt F) fI x = fI ((iBlk L).view.emb x) from (View.read_apply _ _).trans (cast_eq _ _)]
  exact hI _

set_option maxHeartbeats 4000000 in
/-- The task of the tile at `L`. -/
theorem tile_body (hF : (K (F := F)).Facts)
    (fI : Buf (Elt F) (iLoc d)) (fW : Buf (Elt F) (wLoc d)) (fO : Buf (Elt F) (oLoc d)) (q : PosShare TreeShare)
    (hI : ∀ j : S16384.Idx, ((fI : S16384.Idx → BitVec 32) j).toNat < 22801)
    (O : CellTallies nD τ sig (HIx 1)) (W : Waits sig (HIx 1)) (hO : ∀ g, O g none = 0) :
    (iprop(levAts (K (F := F)).L (K (F := F)).lev ∗ emp
        ∗ ((iLoc d ↦[iSet L]{fullShare} fI) ∗ (wLoc d ↦{q} fW) ∗ oLoc d ↦[oSet L]{fullShare} fO)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_sc_gather L iV (Memref.isWhole_whole _) wV (Memref.isWhole_whole _) oV (Memref.isWhole_whole _)
            sV (Memref.isWhole_whole _) rV (Memref.isWhole_whole _) cc0_scratch2 cc0_scoped0 cc0_scoped1)
          fun _ => iprop(((iLoc d ↦[iSet L]{fullShare} fI) ∗ (wLoc d ↦{q} fW)
              ∗ oLoc d ↦[oSet L]{fullShare} (gathered (F := F) fI fW : Buf (Elt F) (oLoc d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  rw [(K (F := F)).scopedBufs_V hF d (cV L) (jV L), SparseCore.Cfg.scopedSems0_V (Val := Elt F) d (cV L) (jV L), ownSems0_V, ownBufs_V]
  iintro ⟨#Hlv, -, ⟨Hi, Hw, Ho⟩, ⟨⟨%fs, Hs⟩, ⟨%fr, Hr⟩, Hbufs⟩, ⟨HsemG, HsemF, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iBlk (F := F) d L _).symm) $$ Hi
  ihave Ho' := (Entails.of_eq (pts_oBlk (F := F) d L _).symm) $$ Ho
  ihave Hw' := (Entails.of_eq (pts_wV (F := F) d L _ _).symm) $$ Hw
  ihave Hs' := (Entails.of_eq (pts_sV (F := F) d L _).symm) $$ Hs
  ihave Hr' := (Entails.of_eq (pts_rV (F := F) d L _).symm) $$ Hr
  sl_exec
  have hin := list_inb (F := F) d L fI hI fs (tile_body.sl.dma0 d L fI) rfl
  sl_exec
  -- the output block, written once with what the row buffer held after the gather, holds the gathered rows
  have hOut : ((oBlk L).view.loc (V d (cV L) (jV L)) ↦[(oBlk L).view.set]{fullShare}
        ((oBlk L).view.writes (Elt F) fO [⟨Rect.whole S512x128, tile_body.sl.dma0_1 d L fI fW fs fr hin⟩]) : sProp 𝕄)
      = oLoc d ↦[oSet L]{fullShare} (gathered (F := F) fI fW : Buf (Elt F) (oLoc d)) :=
    pointsTo_congr fun i hi => out_block_value (F := F) L (gathered fI fW) fO _
      (fun y i h0 h1 => tile_pay (F := F) L fI fW hI fs fr _ _ hin y i h0 h1) i hi
  sl_step
  isplitl [Hi' Hw' Ho']
  · isplitl [Hi']; · iapply (Entails.of_eq (pts_iBlk (F := F) d L _)); iexact Hi'
    isplitl [Hw']; · iapply (Entails.of_eq (pts_wV (F := F) d L _ _)); iexact Hw'
    iapply (Entails.of_eq hOut); iexact Ho'
  isplitl [Hs' Hr' Hbufs]
  · isplitl [Hs']; · iexists _; iexact Hs'
    isplitl [Hr']; · iexists _; iexact Hr'
    iexact Hbufs
  isplitl [HsemG HsemF HsemO Hsems]
  · isplitl [HsemG]; · iexact HsemG
    isplitl [HsemF]; · iexact HsemF
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The launch theorem's obligation for the tiles -/

section Obl

variable [FloatOps F]
variable (fI : (d : Dev nD) → Buf (Elt F) (iLoc d)) (fW : (d : Dev nD) → Buf (Elt F) (wLoc d)) (fO : (d : Dev nD) → Buf (Elt F) (oLoc d))

theorem defs₀_vector (c : Fin τ.nSC) (s : Fin τ.nSub) :
    defs₀ (F := F) (.scVector c s) 0 ()
      = SparseCore.onTile hcore0 hsub0 (fun c s => cc0_sc_gather (coordsV c s)
          iV (Memref.isWhole_whole _) wV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : ∀ (d : Dev nD) (j : S16384.Idx), ((fI d : S16384.Idx → BitVec 32) j).toNat < 22801) :
    (K (F := F)).TileObl (D (F := F)) 𝒱 (P fI fW fO) v₀ 0 := by
  intro d c i O W hO _ _
  simp only [show (P fI fW fO).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (fI d) (fW d) (fO d) _ (hI d) O W hO).trans (wp_mono frame _ _ fun _ => obl_post)

end Obl

end Cert.Proof.KB

end
-- ==== Proof.KB.Main.lean ====
/-
  @main on the TensorCore around the one SparseCore call, and the program's run.

  Eleven host operations come before the call: eight make the vector of pair numbers from the labels, three pad the
  table with 77 zero columns. One comes after: the first 51 columns of the call's result. Between them the call takes
  the pair numbers, the padded table and the result array, deals them to the 32 tiles, and brings them back with the
  result holding the gathered rows. Read at (r, j), j < 51, the final array is the padded table at (pair number r, j),
  which is the table itself there: the specified function.
-/
import proofs.«207668_g20005957664788_cont_8to1_364_6_alg».proof.Proof.KB.Tile
import proofs.«207668_g20005957664788_cont_8to1_364_6_alg».proof.Proof.HostIdx
import Idealize.ShloMosaic.Lib.KernelVsHost
import Idealize.ShloMosaic.Lib.Pipeline.Frame
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq)
open Idealize.ShloMosaic.Tactic
open Idealize.ShloMosaic.ValueIdx
open Idealize.ShloMosaic.TcCoe

variable {F : FTy → Type}

local notation "𝕄" => MT nD τ sig (HIx 1) (Elt F) ℕ UU ℕ

/-! ## The host operations, as two lines -/

section Ops
variable [FloatOps F]

/-- The eleven operations before the call, -/
abbrev opsPre : List (HloOp τ sig (Elt F)) :=
  [ StableHlo.unary main_arg0 main_v0 ((extractStridedSlice S16384x1 ![0, 0] · Facts₀.slices_S16384x2_S16384x1_0_0) : (⟨S16384x2, .i32⟩ : BufTy).Contents (Elt F) → (⟨S16384x1, .i32⟩ : BufTy).Contents (Elt F)),
    StableHlo.reshape main_v0 main_v1 rfl Facts₀.shapeCasts_S16384x1_S16384,
    StableHlo.nullary main_c (constantI S_ 32 151#32),
    StableHlo.unary main_c main_v2 (broadcastInDim S16384 ![] Facts₀.bcast_S_S16384 : (⟨S_, .i32⟩ : BufTy).Contents (Elt F) → (⟨S16384, .i32⟩ : BufTy).Contents (Elt F)),
    StableHlo.binary main_v1 main_v2 main_v3 (muli : (⟨S16384, .i32⟩ : BufTy).Contents (Elt F) → (⟨S16384, .i32⟩ : BufTy).Contents (Elt F) → (⟨S16384, .i32⟩ : BufTy).Contents (Elt F)),
    StableHlo.unary main_arg0 main_v4 ((extractStridedSlice S16384x1 ![0, 1] · Facts₀.slices_S16384x2_S16384x1_0_1) : (⟨S16384x2, .i32⟩ : BufTy).Contents (Elt F) → (⟨S16384x1, .i32⟩ : BufTy).Contents (Elt F)),
    StableHlo.reshape main_v4 main_v5 rfl Facts₀.shapeCasts_S16384x1_S16384,
    StableHlo.binary main_v3 main_v5 main_v6 (addi : (⟨S16384, .i32⟩ : BufTy).Contents (Elt F) → (⟨S16384, .i32⟩ : BufTy).Contents (Elt F) → (⟨S16384, .i32⟩ : BufTy).Contents (Elt F)),
    StableHlo.nullary main_c_0 (constantI S_ 32 0#32),
    StableHlo.TRef.unary (.of main_c_0 : StableHlo.TRef sig ⟨S_, .i32⟩) main_call0.v0 (sitofp .f32),
    StableHlo.TRef.binary (.of main_arg1 : StableHlo.TRef sig ⟨S22801x51, .f32⟩) main_call0.v0 main_call0.v1 (fun x v => pad S22801x128 ![0, 0] ![0, 77] ![0, 0] x v Facts₀.pads_S22801x51_S22801x128_000_0770 Facts₀.h_S_) ]

/-- and the one after it. -/
abbrev opsPost : List (HloOp τ sig (Elt F)) :=
  [ StableHlo.unary main_v8 main_v9 ((extractStridedSlice S16384x51 ![0, 0] · Facts₀.slices_S16384x128_S16384x51_0_0) : (⟨S16384x128, .f32⟩ : BufTy).Contents (Elt F) → (⟨S16384x51, .f32⟩ : BufTy).Contents (Elt F)) ]

set_option maxRecDepth 4096 in
/-- @main is the first line, the call, the second line. -/
theorem main_eq (d : Dev nD) :
    main (F := F) d = (StableHlo.seq opsPre >>= fun _ => ((sc (F := F)).run d 0 >>= fun _ => (StableHlo.seq opsPost >>= fun _ => pure ⟨⟩))) := by
  simp only [main, fn_pad.body, StableHlo.seq, bind_assoc, pure_bind]

theorem opsPre_tc : (opsPre : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub ..,
    StableHlo.binary_bufs_sub .., StableHlo.unary_bufs_sub .., StableHlo.reshape_bufs_sub .., StableHlo.binary_bufs_sub ..,
    StableHlo.nullary_bufs_sub .., StableHlo.unary_bufs_sub .., StableHlo.binary_bufs_sub ..⟩

theorem opsPre_sub : ∀ op ∈ (opsPre : List (HloOp τ sig (Elt F))), op.bufs ⊆ Pipeline.ucRefs τ sig :=
  fun op h => Pipeline.sub_ucRefs op (List.forall_iff_forall_mem.mp opsPre_tc op h)

theorem opsPre_fresh : ∀ op ∈ (opsPre : List (HloOp τ sig (Elt F))), op.fresh = ∅ := by
  intro _ h; (repeat (cases h with | head => rfl | tail _ h => ?_)); exact nomatch h

theorem opsPost_tc : (opsPost : List (HloOp τ sig (Elt F))).Forall fun op => op.bufs ⊆ StableHlo.tcRefs τ sig :=
  StableHlo.unary_bufs_sub ..

theorem opsPost_sub : ∀ op ∈ (opsPost : List (HloOp τ sig (Elt F))), op.bufs ⊆ Pipeline.ucRefs τ sig :=
  fun op h => Pipeline.sub_ucRefs op (List.forall_iff_forall_mem.mp opsPost_tc op h)

theorem opsPost_fresh : ∀ op ∈ (opsPost : List (HloOp τ sig (Elt F))), op.fresh = ∅ := by
  intro _ h; (repeat (cases h with | head => rfl | tail _ h => ?_)); exact nomatch h

end Ops

/-! ## What the arrays hold along @main -/

section Run

variable [FloatOps F]
variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev i' : DevRef τ sig := Proc.devRef .tc (main_v6 : Ref sig .tc)
abbrev w' : DevRef τ sig := Proc.devRef .tc (main_v7 : Ref sig .tc)
abbrev o' : DevRef τ sig := Proc.devRef .tc (main_v8 : Ref sig .tc)
abbrev r' : DevRef τ sig := Proc.devRef .tc (main_v9 : Ref sig .tc)

/-- The launch contents; after the first line; after the call; after the second line. -/
def V0 (d : Dev nD) : Valuation τ sig (Elt F) := fun b => m (d, b)
def V1 (d : Dev nD) : Valuation τ sig (Elt F) := StableHlo.after (opsPre (F := F)) (V0 m d)
def fIof (d : Dev nD) : Buf (Elt F) (iLoc d) := V1 m d i'
def fWof (d : Dev nD) : Buf (Elt F) (wLoc d) := V1 m d w'
def fOof (d : Dev nD) : Buf (Elt F) (oLoc d) := V1 m d o'
def V2 (d : Dev nD) : Valuation τ sig (Elt F) := Function.update (V1 m d) o' (gathered (F := F) (fIof m d) (fWof m d))
def V3 (d : Dev nD) : Valuation τ sig (Elt F) := StableHlo.after (opsPost (F := F)) (V2 m d)

/-- The call's payloads at those contents. -/
abbrev PP : (K (F := F)).Pay (nD := nD) (Val := Elt F) (Name := ℕ) (U := UU) := P (F := F) (fIof m) (fWof m) (fOof m)

set_option maxRecDepth 8192 in
/-- After the first line the pair-number buffer holds the pair numbers, -/
theorem V1_i (d : Dev nD) : (V1 m d i' : S16384.Idx → BitVec 32) = Cert.Spec.idxVec (m (d, a0')) := by
  unfold V1
  after_results
  exact Cert.Proof.HostIdx.pairNumbers_eq _ _ _ _ _

set_option maxRecDepth 8192 in
/-- the table's buffer the table padded with 77 columns, -/
theorem V1_w (d : Dev nD) : (V1 m d w' : S22801x128.Idx → Elt F .f32)
    = pad S22801x128 ![0, 0] ![0, 77] ![0, 0] (m (d, a1') : S22801x51.Idx → Elt F .f32)
        (sitofp .f32 (constantI S_ 32 0#32) : S_.Idx → Elt F .f32) Facts₀.pads_S22801x51_S22801x128_000_0770 Facts₀.h_S_ := by
  unfold V1
  after_results
  simp only [StableHlo.TRef.toBuf, StableHlo.TRef.ofBuf, cast_eq]
  rfl

set_option maxRecDepth 8192 in
/-- and the arguments what they held. -/
theorem V1_a0 (d : Dev nD) : V1 m d a0' = m (d, a0') := by
  unfold V1
  after_results
  rfl
set_option maxRecDepth 8192 in
theorem V1_a1 (d : Dev nD) : V1 m d a1' = m (d, a1') := by
  unfold V1
  after_results
  rfl

/-- The padded table at a column of the table is the table. -/
theorem V1_w_apply (d : Dev nD) (r : Fin 22801) (q : Fin 51) (hq : q.val < 128) :
    (V1 m d w' : S22801x128.Idx → Elt F .f32) (ix2 r (⟨q.val, hq⟩ : Fin 128)) = (m (d, a1') : S22801x51.Idx → Elt F .f32) (ix2 r q) := by
  rw [V1_w]
  refine pad_apply_of_inside _ _ _ _ _ _ _ (ix2 r (⟨q.val, hq⟩ : Fin 128)) (ix2 r q) (fun a => ?_)
  match a with
  | ⟨0, _⟩ => show r.val = 0 + r.val * (0 + 1); omega
  | ⟨1, _⟩ => show q.val = 0 + q.val * (0 + 1); omega

set_option maxRecDepth 8192 in
/-- After the second line the result buffer holds the first 51 columns of what the call left, -/
theorem V3_r (d : Dev nD) : (V3 m d r' : S16384x51.Idx → Elt F .f32)
    = extractStridedSlice S16384x51 ![0, 0] (gathered (F := F) (fIof m d) (fWof m d)) Facts₀.slices_S16384x128_S16384x51_0_0 := by
  unfold V3
  after_results
  unfold V2
  rw [Function.update_self]

set_option maxRecDepth 8192 in
theorem V3_a0 (d : Dev nD) : V3 m d a0' = m (d, a0') := by
  unfold V3
  after_results
  unfold V2
  rw [Function.update_of_ne (show a0' ≠ o' by decide)]
  exact V1_a0 m d
set_option maxRecDepth 8192 in
theorem V3_a1 (d : Dev nD) : V3 m d a1' = m (d, a1') := by
  unfold V3
  after_results
  unfold V2
  rw [Function.update_of_ne (show a1' ≠ o' by decide)]
  exact V1_a1 m d

/-- The pair numbers after the first line name table rows, inside the domain. -/
theorem fI_inb (hdom : ∀ d : Dev nD, Cert.Spec.InDomain (m (d, a0'))) (d : Dev nD) (j : S16384.Idx) :
    ((fIof m d : S16384.Idx → BitVec 32) j).toNat < 22801 := by
  unfold fIof
  rw [V1_i]
  exact Cert.Spec.word_lt (hdom d) _

/-- Inside the domain the result buffer ends at the specified function of the arguments. -/
theorem result_eq (hdom : ∀ d : Dev nD, Cert.Spec.InDomain (m (d, a0'))) (d : Dev nD) :
    (V3 m d r' : S16384x51.Idx → Elt F .f32) = Cert.Spec.G (F := F) (m (d, a0')) (m (d, a1')) := by
  rw [V3_r]
  funext y
  obtain ⟨r, q, rfl⟩ : ∃ (r : Fin 16384) (q : Fin 51), y = ix2 r q := ⟨y 0, y 1, eq_ix2 y⟩
  have hq : q.val < 128 := by have := q.isLt; omega
  rw [extractStridedSlice_apply _ _ _ (ix2 r q) (ix2 r (⟨q.val, hq⟩ : Fin 128)) (fun a => by
    match a with
    | ⟨0, _⟩ => show r.val = 0 + r.val; omega
    | ⟨1, _⟩ => show q.val = 0 + q.val; omega)]
  unfold gathered Cert.Spec.G
  show (fWof m d : S22801x128.Idx → Elt F .f32) (ix2 (gRow (fIof m d) ⟨r.val, _⟩) (⟨q.val, _⟩ : Fin 128)) = _
  unfold fWof
  rw [V1_w_apply m d _ q hq]
  refine congrArg (fun z => (m (d, a1') : S22801x51.Idx → Elt F .f32) (ix2 z q)) (Fin.ext ?_)
  show ((fIof m d : S16384.Idx → BitVec 32) (ix1 (⟨r.val, _⟩ : Fin 16384))).toNat % 22801 = (Cert.Spec.word (m (d, a0')) r).toNat % 22801
  unfold fIof
  rw [V1_i]
  rfl

end Run

/-! ## The launch: @main, the final memory, the run -/

section Launch

variable [FloatOps F]
variable (m : (ℓ : Loc nD τ sig) → Buf (Elt F) ℓ) (ρ : Dev nD → PrngReg)

/-- The call's three arrays, and the three the claim reads at the end. -/
abbrev T3 : Finset (DevRef τ sig) := {i', w', o'}
abbrev TF : Finset (DevRef τ sig) := {a0', a1', r'}

theorem T3_sub : T3 ⊆ Pipeline.ucRefs τ sig := by decide
theorem TF_sub : TF ⊆ Pipeline.ucRefs τ sig := by decide

omit [FloatOps F] in
theorem held_T3 (d : Dev nD) (W : Valuation τ sig (Elt F)) :
    (held (T d) T3 W : sProp 𝕄) = iprop((iLoc d ↦{fullShare} W i') ∗ (wLoc d ↦{fullShare} W w') ∗ oLoc d ↦{fullShare} W o') := by
  unfold held T3
  rw [SparseCore.bigSep_insert' (by decide), SparseCore.bigSep_insert' (by decide), bigSep_singleton]

omit [FloatOps F] in
theorem held_TF (d : Dev nD) (W : Valuation τ sig (Elt F)) :
    (held (T d) TF W : sProp 𝕄) = iprop((((d, a0') : Loc nD τ sig) ↦{fullShare} W a0') ∗ (((d, a1') : Loc nD τ sig) ↦{fullShare} W a1')
      ∗ ((d, r') : Loc nD τ sig) ↦{fullShare} W r') := by
  unfold held TF
  rw [SparseCore.bigSep_insert' (by decide), SparseCore.bigSep_insert' (by decide), bigSep_singleton]

/-- The three arrays of the call dealt to the 32 tiles: each tile its block of pair numbers and of the output and a read
    share of the table; the shares' remainders stay behind. An equality: read backwards it gathers them again. -/
theorem deal_eq (fI : (d : Dev nD) → Buf (Elt F) (iLoc d)) (fW : (d : Dev nD) → Buf (Elt F) (wLoc d)) (fO : (d : Dev nD) → Buf (Elt F) (oLoc d))
    (d : Dev nD) :
    (iprop((iLoc d ↦{fullShare} fI d) ∗ (wLoc d ↦{fullShare} fW d) ∗ oLoc d ↦{fullShare} fO d) : sProp 𝕄)
      = iprop(Cert.LibDealShares.rem (grid0.bound 0) (grid0.bound 1) (wLoc d) (fW d)
          ∗ bigSep Finset.univ fun c : Fin (grid0.bound 0) => bigSep Finset.univ fun i : Fin (grid0.bound 1) => goOf fI fW fO d (c, i)) := by
  have eI : (iLoc d ↦{fullShare} fI d : sProp 𝕄) = bigSep Finset.univ fun t : Tile => iLoc d ↦[iSet (tileL t)]{fullShare} fI d := by
    rw [← pointsTo_biUnion Finset.univ (ℓ := iLoc d) (fun t : Tile => iSet (tileL t)) iSets_disjoint, iSets_cover]; try rfl
  have eO : (oLoc d ↦{fullShare} fO d : sProp 𝕄) = bigSep Finset.univ fun t : Tile => oLoc d ↦[oSet (tileL t)]{fullShare} fO d := by
    rw [← pointsTo_biUnion Finset.univ (ℓ := oLoc d) (fun t : Tile => oSet (tileL t)) oSets_disjoint, oSets_cover]; try rfl
  have eW : (wLoc d ↦{fullShare} fW d : sProp 𝕄)
      = iprop(Cert.LibDealShares.rem (grid0.bound 0) (grid0.bound 1) (wLoc d) (fW d)
          ∗ bigSep Finset.univ fun t : Tile => wLoc d ↦{wq t.1 t.2} fW d) := by
    rw [bigSep_univ_prod (fun t : Tile => (wLoc d ↦{wq t.1 t.2} fW d : sProp 𝕄))]
    exact Cert.LibDealShares.deal (grid0.bound 0) (grid0.bound 1) (wLoc d) (fW d)
  rw [← bigSep_univ_prod (fun t : Tile => goOf fI fW fO d t)]
  unfold goOf
  rw [bigSep_sep', bigSep_sep', eI, eO, eW]
  refine BI.equiv_iff.mp ⟨Cert.LibDealShares.of_ent ?_, Cert.LibDealShares.of_ent ?_⟩
  · iintro ⟨HA, ⟨Hrem, HB⟩, HC⟩
    isplitl [Hrem]; · iexact Hrem
    isplitl [HA]; · iexact HA
    isplitl [HB]; · iexact HB
    iexact HC
  · iintro ⟨Hrem, HA, HB, HC⟩
    isplitl [HA]; · iexact HA
    isplitl [Hrem HB]
    · isplitl [Hrem]; · iexact Hrem
      iexact HB
    iexact HC

/-- The held set after the first line: the call's three arrays and the rest. -/
theorem held_V1 (d : Dev nD) :
    (held (d.tc : Thread nD τ) (Pipeline.ucRefs τ sig) (StableHlo.after (opsPre (F := F)) (V0 m d)) : sProp 𝕄)
      = iprop(((iLoc d ↦{fullShare} fIof m d) ∗ (wLoc d ↦{fullShare} fWof m d) ∗ oLoc d ↦{fullShare} fOof m d)
          ∗ held (T d) (Pipeline.ucRefs τ sig \ T3) (V1 m d)) := by
  show (held (T d) (Pipeline.ucRefs τ sig) (V1 m d) : sProp 𝕄) = _
  rw [held_sub_split (T d) T3_sub, held_T3]; rfl

/-- The held set after the call: the result array at the gathered rows, everything else as before. -/
theorem held_V2 (d : Dev nD) :
    (held (d.tc : Thread nD τ) (Pipeline.ucRefs τ sig) (V2 m d) : sProp 𝕄)
      = iprop(((iLoc d ↦{fullShare} fIof m d) ∗ (wLoc d ↦{fullShare} fWof m d)
            ∗ oLoc d ↦{fullShare} (gathered (F := F) (fIof m d) (fWof m d) : Buf (Elt F) (oLoc d)))
          ∗ held (T d) (Pipeline.ucRefs τ sig \ T3) (V1 m d)) := by
  show (held (T d) (Pipeline.ucRefs τ sig) (V2 m d) : sProp 𝕄) = _
  rw [held_sub_split (T d) T3_sub, held_T3,
    held_congr (T d) (S := Pipeline.ucRefs τ sig \ T3) (V := V2 m d) (V' := V1 m d) (fun b hb => by
      unfold V2
      refine Function.update_of_ne (fun e => ?_) _ _
      subst e
      exact (Finset.mem_sdiff.mp hb).2 (by decide))]
  unfold V2
  rw [Function.update_of_ne (show i' ≠ o' by decide), Function.update_of_ne (show w' ≠ o' by decide), Function.update_self]
  rfl

/-- What @main leaves the claim: the two arguments and the result, at what the second line left. -/
abbrev FIN (d : Dev nD) : sProp 𝕄 :=
  iprop((((d, a0') : Loc nD τ sig) ↦{fullShare} V3 m d a0') ∗ (((d, a1') : Loc nD τ sig) ↦{fullShare} V3 m d a1')
      ∗ ((d, r') : Loc nD τ sig) ↦{fullShare} V3 m d r')

theorem held_V3 (d : Dev nD) :
    (held (d.tc : Thread nD τ) (Pipeline.ucRefs τ sig) (StableHlo.after (opsPost (F := F)) (V2 m d)) : sProp 𝕄)
      = iprop(FIN m d ∗ held (T d) (Pipeline.ucRefs τ sig \ TF) (V3 m d)) := by
  show (held (T d) (Pipeline.ucRefs τ sig) (V3 m d) : sProp 𝕄) = _
  rw [held_sub_split (T d) TF_sub, held_TF]

/-- What the call takes for the two SparseCores is what their tiles take, and what it hands back what they hand back. -/
theorem st_eq (d : Dev nD) :
    (bigSep Finset.univ fun c : Fin ((K (F := F)).nCore 0) => (PP m).st 0 d c)
      = bigSep Finset.univ fun c : Fin (grid0.bound 0) => bigSep Finset.univ fun i : Fin (grid0.bound 1) => goOf (fIof m) (fWof m) (fOof m) d (c, i) := rfl
theorem dn_eq (d : Dev nD) :
    (bigSep Finset.univ fun c : Fin ((K (F := F)).nCore 0) => (PP m).dn 0 d c)
      = bigSep Finset.univ fun c : Fin (grid0.bound 0) => bigSep Finset.univ fun i : Fin (grid0.bound 1) =>
          goOf (fIof m) (fWof m) (fun d => (gathered (F := F) (fIof m d) (fWof m d) : Buf (Elt F) (oLoc d))) d (c, i) := rfl

/-- @main on device `d`'s TensorCore: the first line within the held arrays, the call, the second line. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq, show (fun b : Ref sig .tc => m ((SparseCore.T d).loc b)) = (fun b : Ref sig .tc => V0 m d b) from rfl,
    Pipeline.unscopedBufs_held]
  iintro ⟨#Hctx, Hst, ⟨Hb, Hheld, -, -⟩, -⟩
  iapply (wp_seq 𝒱 none Set.univ d (Pipeline.ucRefs τ sig) _ opsPre opsPre_sub opsPre_fresh (V0 m d)) $$ [Hb Hheld]
  · isplitl [Hb]; · iexact Hb
    iexact Hheld
  iintro ⟨Hb, Hheld⟩
  rw [wp_bind]
  ihave Hh := (Entails.of_eq (held_V1 m d)) $$ Hheld
  icases Hh with ⟨H3, Hrest⟩
  ihave Hd := (Entails.of_eq (deal_eq (fIof m) (fWof m) (fOof m) d)) $$ H3
  icases Hd with ⟨Hrem, Hgo⟩
  iapply ((K (F := F)).wp_run (D (F := F)) 𝒱 (EH := EH) (P := PP m) κ d 0) $$ [Hst Hgo Hb Hrem Hrest]
  isplitr; · iexact Hctx
  isplitl [Hst]; · iexact Hst
  isplitl [Hgo]; · iapply (Entails.of_eq (st_eq m d).symm); iexact Hgo
  iintro ⟨Hst, Hdn⟩
  ihave Hdn' := (Entails.of_eq (dn_eq m d)) $$ Hdn
  ihave H3 := (Entails.of_eq (deal_eq (fIof m) (fWof m) (fun d => (gathered (F := F) (fIof m d) (fWof m d) : Buf (Elt F) (oLoc d))) d).symm) $$ [Hrem Hdn']
  · isplitl [Hrem]; · iexact Hrem
    iexact Hdn'
  ihave Hheld := (Entails.of_eq (held_V2 m d).symm) $$ [H3 Hrest]
  · isplitl [H3]; · iexact H3
    iexact Hrest
  iapply (wp_seq 𝒱 none Set.univ d (Pipeline.ucRefs τ sig) _ opsPost opsPost_sub opsPost_fresh (V2 m d)) $$ [Hb Hheld]
  · isplitl [Hb]; · iexact Hb
    iexact Hheld
  iintro ⟨Hb, Hheld⟩
  ihave Hf := (Entails.of_eq (held_V3 m d)) $$ Hheld
  icases Hf with ⟨Hfin, -⟩
  rw [wp_pure]; imodintro
  isplitl [Hst]; · iexact Hst
  iexact Hfin

/-- What the final memory holds at the three arrays. -/
def fq (d : Dev nD) (s' : Phys nD τ sig (Elt F)) : Prop :=
  s'.mem.mem ((d, a0') : Loc nD τ sig) = V3 m d a0' ∧ s'.mem.mem ((d, a1') : Loc nD τ sig) = V3 m d a1'
    ∧ s'.mem.mem ((d, r') : Loc nD τ sig) = V3 m d r'

set_option maxRecDepth 16384 in
theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := ((d, a0') : Loc nD τ sig)) (I := Finset.univ) (q := fullShare) (f := V3 m d a0'))) $$ [HSI H0]
  · isplitl [HSI] <;> iassumption
  icases H with ⟨%h0, HSI, -⟩
  ihave H := (persistent_entails_right (SI_pointsTo_agree (st := s') (ℓ := ((d, a1') : Loc nD τ sig)) (I := Finset.univ) (q := fullShare) (f := V3 m d a1'))) $$ [HSI H1]
  · isplitl [HSI] <;> iassumption
  icases H with ⟨%h1, HSI, -⟩
  ihave H := (SI_pointsTo_agree (st := s') (ℓ := ((d, r') : Loc nD τ sig)) (I := Finset.univ) (q := fullShare) (f := V3 m d r')) $$ [HSI Hr]
  · isplitl [HSI] <;> iassumption
  icases H with %h2
  ipureintro
  exact ⟨funext fun i => h0 i (Finset.mem_univ i), funext fun i => h1 i (Finset.mem_univ i), funext fun i => h2 i (Finset.mem_univ i)⟩

/-- The run's post: the result at the specified function of the arguments, the arguments unchanged. -/
def QC : PUnit × MemSt nD τ sig (Elt F) → Prop := fun r => ∀ c : Dev nD,
  r.2.mem ((c.tc : Thread nD τ).loc main_v9) = Cert.Spec.G (F := F) (m ((c.tc : Thread nD τ).loc main_arg0)) (m ((c.tc : Thread nD τ).loc main_arg1))
  ∧ r.2.mem ((c.tc : Thread nD τ).loc main_arg0) = m ((c.tc : Thread nD τ).loc main_arg0)
  ∧ r.2.mem ((c.tc : Thread nD τ).loc main_arg1) = m ((c.tc : Thread nD τ).loc main_arg1)

/-- Every weakly fair execution of the program's threads, from a memory whose labels lie in the domain, terminates
    with the result array at the specified function of the arguments and the arguments unchanged. -/
theorem run_main [∀ e, Nonempty (Elt F e)] (hdom : ∀ d : Dev nD, Cert.Spec.InDomain (m (d, a0'))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (fIof m) (fWof m) (fOof m) facts (fI_inb m hdom))
    (fun q _ => match q with | 0 => SparseCore.Cfg.VecSplit.of_plain (vecSplit (fIof m) (fWof m) (fOof m)))
    m ρ main (fun _ => iprop(emp)) (FIN m) (u₀ (F := F)) (sep_elim_left.trans (hu₀ (fIof m) (fWof m) (fOof m))) (hmain m ρ) (fq m) (hfin m) (QC m)
    (fun s' h c => ⟨((h c).2.2).trans (result_eq m hdom c), ((h c).1).trans (V3_a0 m c), ((h c).2.1).trans (V3_a1 m c)⟩)

end Launch

end Cert.Proof.KB

end
-- ==== Proof.RefOps.lean ====
/-
  The reference as a straight line. Its main function is eight host operations that form the pair numbers
  (column 0 times 151 plus column 1), then a call of the row lookup, whose body is twenty-two operations and a
  nested call of a one-operation select. With the two bodies unfolded at their call sites the program is a list of
  thirty-one operations, and what the result buffer holds after them is one composed pure term of the two
  arguments, `takeOf W (idxOf l)`.
-/
import proofs.«207668_g20005957664788_cont_8to1_364_6_alg».proof.ReferenceIdeal
import Idealize.ShloMosaic.Lib.StableHlo.Run

noncomputable section

namespace Cert.Proof.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The pair numbers: column 0 times 151 plus column 1, in 32-bit words (the first eight operations). -/
def idxOf (l : IVec S16384x2 32) : IVec S16384 32 :=
  addi
    (muli (shapeCast S16384 (extractStridedSlice S16384x1 ![0, 0] l slices_S16384x2_S16384x1_0_0) shapeCasts_S16384x1_S16384)
      (broadcastInDim S16384 ![] bcast_S_S16384 (constantI S_ 32 151#32)))
    (shapeCast S16384 (extractStridedSlice S16384x1 ![0, 1] l slices_S16384x2_S16384x1_0_1) shapeCasts_S16384x1_S16384)

/-- The index the lookup uses: a negative index moved up by the table's height. -/
def normOf (i : IVec S16384 32) : IVec S16384 32 :=
  select (cmpi .slt i (broadcastInDim S16384 ![] bcast_S_S16384 (constantI S_ 32 0#32)))
    (addi i (broadcastInDim S16384 ![] bcast_S_S16384 (constantI S_ 32 22801#32))) i

/-- The index as a column. -/
def colOf (i : IVec S16384 32) : IVec S16384x1 32 :=
  broadcastInDim S16384x1 ![0] bcast_S16384_S16384x1_0 (normOf i)

/-- The bounds mask: the index is at least 0 and at most 22800, reduced over the column's one entry. -/
def maskOf (i : IVec S16384 32) : IVec S16384 1 :=
  Host.reduce IntOp.andi
    (andi (cmpi .sge (colOf i) (broadcastInDim S16384x1 ![] bcast_S_S16384x1 (constantI S_ 32 0#32)))
      (cmpi .sle (colOf i)
        (broadcastInDim S16384x1 ![0, 1] bcast_S1x1_S16384x1_0_1
          (broadcastInDim S1x1 ![1] bcast_S1_S1x1_1 (constantI S1 32 22800#32)))))
    (constantI S_ 1 1#1) reducesTo_S16384x1_S16384_d1 h_S_

/-- The row lookup: the gathered rows where the mask holds, NaN elsewhere. -/
def takeOf (W : FVec F S22801x51 .f32) (i : IVec S16384 32) : FVec F S16384x51 .f32 :=
  select (broadcastInDim S16384x51 ![0] bcast_S16384_S16384x51_0 (maskOf i))
    (Host.gather gather_S22801x51_S16384x1_S16384x51_1_0_n_n_0_1_151 W (colOf i))
    (broadcastInDim S16384x51 ![] bcast_S_S16384x51 (constant S_ .f32 0x7FC00000#32))

/-- The thirty-one operations in order: the main function's eight, then the lookup's body over the call's
    buffers, the nested select in its place. -/
abbrev ops : List (HloOp τ sig (Elt F)) :=
  [ unary main_arg0 main_v0 ((extractStridedSlice S16384x1 ![0, 0] · slices_S16384x2_S16384x1_0_0) : (⟨S16384x2, .i32⟩ : BufTy).Contents (Elt F) → (⟨S16384x1, .i32⟩ : BufTy).Contents (Elt F)),
    reshape main_v0 main_v1 rfl shapeCasts_S16384x1_S16384,
    nullary main_c (constantI S_ 32 151#32),
    unary main_c main_v2 (broadcastInDim S16384 ![] bcast_S_S16384 : (⟨S_, .i32⟩ : BufTy).Contents (Elt F) → (⟨S16384, .i32⟩ : BufTy).Contents (Elt F)),
    binary main_v1 main_v2 main_v3 (muli : (⟨S16384, .i32⟩ : BufTy).Contents (Elt F) → (⟨S16384, .i32⟩ : BufTy).Contents (Elt F) → (⟨S16384, .i32⟩ : BufTy).Contents (Elt F)),
    unary main_arg0 main_v4 ((extractStridedSlice S16384x1 ![0, 1] · slices_S16384x2_S16384x1_0_1) : (⟨S16384x2, .i32⟩ : BufTy).Contents (Elt F) → (⟨S16384x1, .i32⟩ : BufTy).Contents (Elt F)),
    reshape main_v4 main_v5 rfl shapeCasts_S16384x1_S16384,
    binary main_v3 main_v5 main_v6 (addi : (⟨S16384, .i32⟩ : BufTy).Contents (Elt F) → (⟨S16384, .i32⟩ : BufTy).Contents (Elt F) → (⟨S16384, .i32⟩ : BufTy).Contents (Elt F)),
    TRef.nullary main_call0.c (constantI S_ 32 0#32),
    TRef.unary main_call0.c main_call0.v0 (broadcastInDim S16384 ![] bcast_S_S16384),
    TRef.binary (.of main_v6) main_call0.v0 main_call0.v1 (cmpi .slt),
    TRef.nullary main_call0.c_0 (constantI S_ 32 22801#32),
    TRef.unary main_call0.c_0 main_call0.v2 (broadcastInDim S16384 ![] bcast_S_S16384),
    TRef.binary (.of main_v6) main_call0.v2 main_call0.v3 addi,
    TRef.ternary main_call0.v1 main_call0.v3 (.of main_v6) main_call0.call0.v0 select,
    TRef.unary main_call0.call0.v0 main_call0.v5 (broadcastInDim S16384x1 ![0] bcast_S16384_S16384x1_0),
    TRef.nullary main_call0.c_1 (constantI S1 32 22800#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S22801x51_S16384x1_S16384x51_1_0_n_n_0_1_151 x i),
    TRef.unary main_call0.v12 main_call0.v14 (broadcastInDim S16384x51 ![0] bcast_S16384_S16384x51_0),
    TRef.nullary main_call0.cst (constant S_ .f32 0x7FC00000#32),
    TRef.unary main_call0.cst main_call0.v15 (broadcastInDim S16384x51 ![] bcast_S_S16384x51),
    TRef.ternary main_call0.v14 main_call0.v13 main_call0.v15 main_call0.v16 select ]

set_option maxRecDepth 1024 in
/-- The main function is that straight line: the two bodies unfolded at their calls, the sequencing
    reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., unary_bufs_sub ..,
    reshape_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

end Cert.Proof.Ref

end
-- ==== Proof.RefRaw.lean ====
/-
  What the buffers hold after the straight line. The result buffer holds the composed term `takeOf W (idxOf l)` of the
  two arguments' launch contents, and the two arguments are unchanged: every weakly fair execution of the reference
  ends so.
-/
import proofs.«207668_g20005957664788_cont_8to1_364_6_alg».proof.Proof.RefOps

noncomputable section

namespace Cert.Proof.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

set_option maxRecDepth 8192 in
/-- The fold of the operations at the result buffer is the composed term: each operation's result rewritten at its
    own buffer, the typed references' transports (the identity at these literal references) removed. -/
theorem out_eq (V : Valuation τ sig (Elt F)) :
    after ops V (main_v7 : DevRef τ sig) = takeOf (V (main_arg1 : DevRef τ sig)) (idxOf (V (main_arg0 : DevRef τ sig))) := by
  after_results_simp
  simp only [TRef.toBuf, TRef.ofBuf, cast_eq]
  unfold takeOf maskOf colOf normOf idxOf
  rfl

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

/-- From any memory with zero counters, every weakly fair execution of the reference terminates with the result at
    the composed term of the arguments and the arguments unchanged. -/
theorem run_raw (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v7)
          = takeOf (m ((c.tc : Thread nD τ).loc main_arg1)) (idxOf (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v7).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.LibGatherRows.lean ====
/-
  jnp's row indexing `x[idx]` of a [N, C] array by R row numbers lowers to a gather whose slices are whole rows: axis
  0 of the operand is collapsed and started at the row number, axis 1 is an offset axis taken whole. Read at result
  index (b, q) it is the operand at (the row number of b, read signed and clamped into 0 … N − 1; q). Stated for any
  N, R, C, with the dimension numbers as a program prints them.
-/
import Idealize.ShloMosaic.PureOps.ShapeOps
import Idealize.ShloMosaic.Lib.ValueIdx

namespace Idealize.ShloMosaic.LibGatherRows

open Idealize.ShloMosaic.ValueIdx

variable {α : Type}

/-- The dimension numbers of a whole-row gather: [N, C] operand, [R, 1] row numbers, [R, C] result. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row the gather reads for result row b: the row number read signed, clamped into 0 … N − 1. -/
def rowOf {N R w : Nat} (hN : 0 < N) (idx : IVec ⟨2, ![R, 1]⟩ w) (b : Fin R) : Fin N :=
  ⟨min (idx (ix2 b (0 : Fin 1))).toInt.toNat (N - 1), by omega⟩

/-- THE WHOLE-ROW GATHER AT AN INDEX. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (b : Fin R) (q : Fin C) :
    Host.gather (rowsDims N R C wf) x idx (ix2 b q) = x (ix2 (rowOf hN idx b) q) := by
  unfold Host.gather
  congr 1
  funext a
  apply Fin.ext
  fin_cases a <;>
    simp [GatherDims.operandIdx, GatherDims.start, GatherDims.offCoord, GatherDims.batchCoord, rowsDims,
      GatherDims.sKept, Shape.kept, rowOf]
  · refine congrArg (fun z => min (idx z).toInt.toNat (N - 1)) ?_
    funext a
    apply Fin.ext
    fin_cases a <;> rfl
  · first
      | rfl
      | exact congrArg (fun a => ((ix2 b q) a : ℕ)) (by decide)

end Idealize.ShloMosaic.LibGatherRows
-- ==== Proof.RefValue.lean ====
/-
  The value of the composed term inside the domain. When every pair number is below 22801 (the table's height):
  the pair number is not negative, so the normalising select keeps it; it is at least 0 and at most 22800, so both
  bounds bits are 1, their conjunction is 1, and the reduction over the column's single entry is 1; the final select
  therefore takes the gathered row, and the gather of whole rows reads, at `(r, q)`, the table at row
  "the pair number read signed and clamped into 0 … 22800", which is the pair number itself, and column `q`.
-/
import proofs.«207668_g20005957664788_cont_8to1_364_6_alg».proof.Proof.RefOps
import proofs.«207668_g20005957664788_cont_8to1_364_6_alg».proof.Proof.Spec
import proofs.«207668_g20005957664788_cont_8to1_364_6_alg».proof.Proof.HostIdx
import proofs.«207668_g20005957664788_cont_8to1_364_6_alg».proof.Proof.LibGatherRows
import Idealize.ShloMosaic.Lib.ValueLayout
import Idealize.ShloMosaic.Lib.ReduceAll

noncomputable section

namespace Cert.Proof.Ref

open Cert.ReferenceIdeal Cert.ReferenceIdeal.Facts₀ Idealize.ShloMosaic Idealize.ShloMosaic.ValueIdx

variable {F : FTy → Type} [FloatOps F] [Cert.ReferenceIdeal.Facts]

/-- A word below 22801 reads the same signed and unsigned. -/
theorem toInt_of_lt {x : BitVec 32} (h : x.toNat < 22801) : x.toInt = (x.toNat : Int) :=
  BitVec.toInt_eq_toNat_of_lt (by omega)

/-- It is not negative, -/
theorem slt_zero {x : BitVec 32} (h : x.toNat < 22801) : IntOp.cmpi .slt x 0#32 = 0#1 :=
  eq_zero_of_ne_one fun h1 => by
    have h2 := IntOp.cmpi_slt.1 h1
    rw [toInt_of_lt h, show (0#32 : BitVec 32).toInt = 0 from by decide] at h2
    omega

/-- it is at least 0, -/
theorem sge_zero {x : BitVec 32} (h : x.toNat < 22801) : IntOp.cmpi .sge x 0#32 = 1#1 :=
  IntOp.cmpi_sge.2 (by rw [toInt_of_lt h, show (0#32 : BitVec 32).toInt = 0 from by decide]; omega)

/-- and at most 22800. -/
theorem sle_max {x : BitVec 32} (h : x.toNat < 22801) : IntOp.cmpi .sle x 22800#32 = 1#1 :=
  IntOp.cmpi_sle.2 (by rw [toInt_of_lt h, show (22800#32 : BitVec 32).toInt = 22800 from by decide]; omega)

/-- A left fold by `and` from 1 over entries that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

section
variable {i : IVec S16384 32} (hi : ∀ j, (i j).toNat < 22801)
include hi

/-- The normalising select keeps an index that is not negative. -/
theorem normOf_eq : normOf i = i := by
  funext j
  show Scalar.select (IntOp.cmpi .slt (i j) 0#32) (IntOp.addi (i j) 22801#32) (i j) = i j
  rw [slt_zero (hi j)]
  exact select_zero _ _

omit hi in
/-- The index column at `(r, 0)` is the normalised index at `r`. -/
theorem colOf_apply (i : IVec S16384 32) (y : S16384x1.Idx) : colOf i y = normOf i (ix1 (y 0)) := by
  unfold colOf
  exact broadcastInDim_apply _ _ _ y (ix1 (y 0)) (fun a => by match a with | ⟨0, _⟩ => rfl)

/-- Every bounds bit is 1. -/
theorem bounds_one (y : S16384x1.Idx) :
    andi (cmpi .sge (colOf i) (broadcastInDim S16384x1 ![] bcast_S_S16384x1 (constantI S_ 32 0#32)))
      (cmpi .sle (colOf i)
        (broadcastInDim S16384x1 ![0, 1] bcast_S1x1_S16384x1_0_1
          (broadcastInDim S1x1 ![1] bcast_S1_S1x1_1 (constantI S1 32 22800#32)))) y = 1#1 := by
  show IntOp.andi (IntOp.cmpi .sge (colOf i y) 0#32) (IntOp.cmpi .sle (colOf i y) 22800#32) = 1#1
  rw [colOf_apply, normOf_eq hi]
  exact IntOp.andi_eq_one.2 ⟨sge_zero (hi _), sle_max (hi _)⟩

/-- The bounds mask is 1 everywhere. -/
theorem maskOf_eq (j : S16384.Idx) : maskOf i j = 1#1 := by
  unfold maskOf
  rw [Host.reduce_eq_foldl]
  exact foldl_andi_one _ (bounds_one hi) _

/-- Inside the domain the lookup at `(r, q)` is the table at row `i r`, column `q`. -/
theorem takeOf_apply (W : FVec F S22801x51 .f32) (r : Fin 16384) (q : Fin 51) :
    takeOf W i (ix2 r q) = W (ix2 ⟨(i (ix1 r)).toNat, hi _⟩ q) := by
  unfold takeOf
  rw [select_apply]
  have hm : broadcastInDim S16384x51 ![0] bcast_S16384_S16384x51_0 (maskOf i) (ix2 r q) = 1#1 := by
    rw [broadcastInDim_apply _ _ _ (ix2 r q) (ix1 r) (fun a => by match a with | ⟨0, _⟩ => rfl)]
    exact maskOf_eq hi _
  rw [hm, select_one]
  refine (LibGatherRows.gather_rows_apply (N := 22801) (R := 16384) (C := 51) (by decide)
    gather_S22801x51_S16384x1_S16384x51_1_0_n_n_0_1_151_wf W (colOf i) r q).trans ?_
  refine congrArg (fun z => W (ix2 z q)) (Fin.ext ?_)
  show min (colOf i (ix2 r (0 : Fin 1))).toInt.toNat (22801 - 1) = (i (ix1 r)).toNat
  rw [colOf_apply, normOf_eq hi]
  have h1 := hi (ix1 r)
  have h2 := toInt_of_lt h1
  show min (i (ix1 r)).toInt.toNat (22801 - 1) = (i (ix1 r)).toNat
  rw [h2, Int.toNat_natCast]
  omega

end

/-- Inside the claim's domain the composed term of the reference is the specified function. -/
theorem value (l : IVec Cert.Spec.SL 32) (W : FVec F Cert.Spec.SW .f32) (h : Cert.Spec.InDomain l) :
    takeOf W (idxOf l) = Cert.Spec.G l W := by
  have hidx : idxOf l = Cert.Spec.idxVec l :=
    HostIdx.pairNumbers_eq slices_S16384x2_S16384x1_0_0 slices_S16384x2_S16384x1_0_1 shapeCasts_S16384x1_S16384
      bcast_S_S16384 l
  have hi : ∀ j, (Cert.Spec.idxVec l j).toNat < 22801 := fun j => Cert.Spec.word_lt h _
  rw [hidx]
  funext y
  obtain ⟨r, q, rfl⟩ : ∃ r q, y = ix2 r q := ⟨y 0, y 1, eq_ix2 y⟩
  rw [takeOf_apply hi W r q]
  refine congrArg (fun z => W (ix2 z q)) (Fin.ext ?_)
  exact (Cert.Spec.rowOf_val h r).symm

end Cert.Proof.Ref

end
-- ==== Proof.RefRun.lean ====
/-
  The reference's run and value at the ideal instance. Every weakly fair execution of the reference terminates
  with the arguments unchanged and the result at the composed term of the arguments; inside the claim's domain
  that term is the specified function `Cert.Spec.G` of them.
-/
import proofs.«207668_g20005957664788_cont_8to1_364_6_alg».proof.Proof.RefRaw
import proofs.«207668_g20005957664788_cont_8to1_364_6_alg».proof.Proof.RefValue

noncomputable section

namespace Cert.Proof.Ref

open Idealize.ShloMosaic Idealize.ShloMosaic.TcCoe Idealize.SL.Sem

theorem run [Cert.ReferenceIdeal.Facts]
    (m' : (ℓ : Loc Cert.ReferenceIdeal.nD Cert.ReferenceIdeal.τ Cert.ReferenceIdeal.sig) → Buf (Elt Ideal) ℓ) (ρ' : Dev Cert.ReferenceIdeal.nD → PrngReg)
    (hdom : ∀ c : Dev Cert.ReferenceIdeal.nD, Cert.Spec.InDomain (m' ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread _ _).loc Cert.ReferenceIdeal.main_v7) = Cert.Spec.G (F := Ideal) (m' ((c.tc : Thread _ _).loc Cert.ReferenceIdeal.main_arg0)) (m' ((c.tc : Thread _ _).loc Cert.ReferenceIdeal.main_arg1))
      ∧ r.2.mem ((c.tc : Thread _ _).loc Cert.ReferenceIdeal.main_arg0) = m' ((c.tc : Thread _ _).loc Cert.ReferenceIdeal.main_arg0)
      ∧ r.2.mem ((c.tc : Thread _ _).loc Cert.ReferenceIdeal.main_arg1) = m' ((c.tc : Thread _ _).loc Cert.ReferenceIdeal.main_arg1)) :=
  (θ_run (Cert.ReferenceIdeal.defs (F := Ideal)) _ _).mono
    (fun _ h c => ⟨((h c).1).trans (value _ _ (hdom c)), (h c).2.1, (h c).2.2⟩)
    (run_raw m' ρ')

end Cert.Proof.Ref

end
-- ==== Proof.Domain.lean ====
/-
  The precondition read off. The claim's domain predicate ends in two `all` reductions joined by `and`: the table is
  finite, and every label is between 0 and 150 in the signed order. From the second one: a 32-bit word that is
  at least 0 and at most 150 as a signed number reads, unsigned, as a number at most 150.
-/
import proofs.«207668_g20005957664788_cont_8to1_364_6_alg».proof.Pre_input_domain
import proofs.«207668_g20005957664788_cont_8to1_364_6_alg».proof.Proof.Spec
import Idealize.ShloMosaic.Lib.ReduceAll

noncomputable section

namespace Cert.Proof.Domain

open Idealize.ShloMosaic

/-- A word between 0 and 150 in the signed order is at most 150 read unsigned. -/
theorem toNat_le_of_signed_range (x : BitVec 32) (h0 : (0#32 : BitVec 32).toInt ≤ x.toInt)
    (h1 : x.toInt ≤ (150#32 : BitVec 32).toInt) : x.toNat ≤ 150 := by
  have e0 : (0#32 : BitVec 32).toInt = 0 := by decide
  have e1 : (150#32 : BitVec 32).toInt = 150 := by decide
  rw [e0] at h0
  rw [e1] at h1
  rw [BitVec.toInt_eq_toNat_cond] at h0 h1
  have hlt := x.isLt
  split at h0 <;> omega

/-- The scalar shape has one index. -/
instance : Subsingleton Cert.Pre_input_domain.S_.Idx := ⟨fun a b => funext fun d => d.elim0⟩

theorem inDomain_of_pre {F : FTy → Type} [FloatOps F] [Cert.Pre_input_domain.Facts]
    (l : IVec Cert.Spec.SL 32) (W : FVec F Cert.Spec.SW .f32)
    (h : Cert.Pre_input_domain.fn (F := F) l W = fun _ => 1#1) : Cert.Spec.InDomain l := by
  intro y
  have h' := congrFun h ValueIdx.ix0
  dsimp only [Cert.Pre_input_domain.fn] at h'
  obtain ⟨-, h2⟩ := IntOp.andi_eq_one.1 h'
  have hy := Host.reduce_andi_all _ _ _ _ _ h2 y
  obtain ⟨ha, hb⟩ := IntOp.andi_eq_one.1 hy
  exact toNat_le_of_signed_range (l y) (IntOp.cmpi_sge.1 ha) (IntOp.cmpi_sle.1 hb)

end Cert.Proof.Domain

end
-- ==== Proof.lean ====
/-
  The certificate's five claims for the pair-frequency lookup.

  Both programs compute, for each of 16384 rows, the pair number labels[r, 0] * 151 + labels[r, 1] in 32-bit words and
  return row (pair number) of the [22801, 51] table. The reference does it on the host with jnp.take: a gather guarded
  by a normalising select and a bounds mask. The kernel pads the table to 128 columns, lets 2 x 16 SparseCore tiles each
  fetch 512 pair numbers, gather the 512 table rows they name and write them out, and keeps the first 51 columns. For
  labels between 0 and 150 (the claim's domain) a pair number is at most 22800, so the reference's guards do nothing and
  the kernel's gather reads inside the table: both results are the one function `Cert.Spec.G` of the arguments. No float
  is computed on either side, so no finiteness is used. The kernel's run (terminating, fault-free, arguments unchanged,
  result named) is proved once for any float instance and read at both; the frames drop the value.
-/
import proofs.«207668_g20005957664788_cont_8to1_364_6_alg».proof.Defs
import proofs.«207668_g20005957664788_cont_8to1_364_6_alg».proof.Proof.Gen.Kernel
import proofs.«207668_g20005957664788_cont_8to1_364_6_alg».proof.Proof.Gen.KernelIdeal
import proofs.«207668_g20005957664788_cont_8to1_364_6_alg».proof.Proof.Gen.ReferenceIdeal
import proofs.«207668_g20005957664788_cont_8to1_364_6_alg».proof.Proof.Gen.Pre_input_domain
import proofs.«207668_g20005957664788_cont_8to1_364_6_alg».proof.Proof.KI.Main
import proofs.«207668_g20005957664788_cont_8to1_364_6_alg».proof.Proof.KB.Main
import proofs.«207668_g20005957664788_cont_8to1_364_6_alg».proof.Proof.RefRun
import proofs.«207668_g20005957664788_cont_8to1_364_6_alg».proof.Proof.Domain
import Idealize.ShloMosaic.Adequacy
import Idealize.ShloMosaic.Init

noncomputable section

namespace Cert.Proof

open Idealize.ShloMosaic Idealize.SL.Sem

/-- The word-level kernel's precondition puts every device's labels in the domain. -/
theorem dom_k (m : (ℓ : Loc Cert.Kernel.nD Cert.Kernel.τ Cert.Kernel.sig) → Buf (Elt Bits) ℓ)
    (h : Cert.Pre_Kernel (hPre_input_domain := Cert.Pre_input_domain.Gen.facts) m) :
    ∀ d : Dev Cert.Kernel.nD, Cert.Spec.InDomain (m (d, Cert.Proof.KB.a0')) :=
  fun d => Cert.Proof.Domain.inDomain_of_pre (F := Bits) _ _ (h d)

/-- So does the idealized kernel's. -/
theorem dom_ki (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) :
    ∀ d : Dev Cert.KernelIdeal.nD, Cert.Spec.InDomain (m (d, Cert.Proof.KI.a0')) :=
  fun d => Cert.Proof.Domain.inDomain_of_pre (F := Ideal) _ _ (h d)

/-- And the reference's. -/
theorem dom_ri (m : (ℓ : Loc Cert.ReferenceIdeal.nD Cert.ReferenceIdeal.τ Cert.ReferenceIdeal.sig) → Buf (Elt Ideal) ℓ)
    (h : Cert.Pre_ReferenceIdeal (hPre_input_domain := Cert.Pre_input_domain.Gen.facts) m) :
    ∀ c : Dev Cert.ReferenceIdeal.nD, Cert.Spec.InDomain (m ((c.tc : Thread Cert.ReferenceIdeal.nD Cert.ReferenceIdeal.τ).loc Cert.ReferenceIdeal.main_arg0)) :=
  fun c => Cert.Proof.Domain.inDomain_of_pre (F := Ideal) _ _ (h c)

/-- The word-level kernel runs and keeps its arguments: its run, the value dropped. -/
theorem frame_k : Cert.frame_Kernel (hKernel := Cert.Kernel.Gen.facts) (hPre_input_domain := Cert.Pre_input_domain.Gen.facts) :=
  fun m g hpre => (θ_run Cert.Kernel.defs _ _).mono (fun _ h c => (h c).2) (Cert.Proof.KB.run_main (F := Bits) m g (dom_k m hpre))

/-- The idealized kernel runs and keeps its arguments. -/
theorem frame_ki : Cert.frame_KernelIdeal (hKernelIdeal := Cert.KernelIdeal.Gen.facts) (hPre_input_domain := Cert.Pre_input_domain.Gen.facts) :=
  fun m g hpre => (θ_run Cert.KernelIdeal.defs _ _).mono (fun _ h c => (h c).2) (Cert.Proof.KI.run_main (F := Ideal) m g (dom_ki m hpre))

/-- The reference runs and keeps its arguments. -/
theorem frame_ri : Cert.frame_ReferenceIdeal (hReferenceIdeal := Cert.ReferenceIdeal.Gen.facts) (hPre_input_domain := Cert.Pre_input_domain.Gen.facts) :=
  fun m g hpre => (θ_run Cert.ReferenceIdeal.defs _ _).mono (fun _ h c => (h c).2)
    (Cert.Proof.Ref.run m g (dom_ri m hpre))

/-- From memories that agree on the arguments both programs end with the result at `Cert.Spec.G` of them. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hd := dom_ki m hpre
  refine ⟨fun c => Cert.Spec.G (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.KI.run_main (F := Ideal) m g hd, ?_⟩
  have hd' : ∀ c : Dev Cert.ReferenceIdeal.nD, Cert.Spec.InDomain (m' ((c.tc : Thread Cert.ReferenceIdeal.nD Cert.ReferenceIdeal.τ).loc Cert.ReferenceIdeal.main_arg0)) :=
    fun c => by rw [(hagree c).1]; exact hd c
  refine (θ_run Cert.ReferenceIdeal.defs _ _).mono (fun _ h c => ⟨?_, (h c).2⟩)
    (Cert.Proof.Ref.run m' g' hd')
  rw [(h c).1, (hagree c).1, (hagree c).2]

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
